-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S300000 : Shape := ⟨1, ![300000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg9 : FVec F S32 .f32) (main_arg10 : FVec F S32 .f32) (main_arg11 : FVec F S32x16 .f32) (main_arg12 : FVec F S16 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg11
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg6 : FVec F S64 .f32) (main_arg7 : FVec F S64x32 .f32) (main_arg8 : FVec F S32 .f32) (main_arg9 : FVec F S32 .f32) (main_arg10 : FVec F S32 .f32) (main_arg11 : FVec F S32x16 .f32) (main_arg12 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S20000x128 .f32) (main_arg1 : IVec S300000 32) (main_arg2 : IVec S300000 32) (main_arg3 : FVec F S256x64 .f32) (main_arg4 : FVec F S64 .f32) (main_arg5 : FVec F S64 .f32) (main_arg6 : FVec F S64 .f32) (main_arg7 : FVec F S64x32 .f32) (main_arg8 : FVec F S32 .f32) (main_arg9 : FVec F S32 .f32) (main_arg10 : FVec F S32 .f32) (main_arg11 : FVec F S32x16 .f32) (main_arg12 : FVec F S16 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S20000x128 : Shape := ⟨2, ![20000, 128]⟩
abbrev S300000 : Shape := ⟨1, ![300000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩
abbrev S300000x1 : Shape := ⟨2, ![300000, 1]⟩
abbrev S300000x128 : Shape := ⟨2, ![300000, 128]⟩
abbrev S128x64 : Shape := ⟨2, ![128, 64]⟩
abbrev S300000x256 : Shape := ⟨2, ![300000, 256]⟩
abbrev S6000x128 : Shape := ⟨2, ![6000, 128]⟩
abbrev S6000x256 : Shape := ⟨2, ![6000, 256]⟩
abbrev S6000x64 : Shape := ⟨2, ![6000, 64]⟩
abbrev S1x64 : Shape := ⟨2, ![1, 64]⟩
abbrev S6000 : Shape := ⟨1, ![6000]⟩
abbrev S6000x1 : Shape := ⟨2, ![6000, 1]⟩
abbrev S6000x32 : Shape := ⟨2, ![6000, 32]⟩
abbrev S1x32 : Shape := ⟨2, ![1, 32]⟩
abbrev S6000x16 : Shape := ⟨2, ![6000, 16]⟩
abbrev S1x16 : Shape := ⟨2, ![1, 16]⟩
abbrev S16x16 : Shape := ⟨2, ![16, 16]⟩
abbrev S6000x16x1 : Shape := ⟨3, ![6000, 16, 1]⟩
abbrev S1x16x16 : Shape := ⟨3, ![1, 16, 16]⟩
abbrev S6000x16x16 : Shape := ⟨3, ![6000, 16, 16]⟩
abbrev S300000x16x16 : Shape := ⟨3, ![300000, 16, 16]⟩

abbrev nBuf : Space → Nat
  | .hbm => 35
  | .vmem => 17
  | .smem => 0
  | _ => 0

abbrev bufTy : (tb : Table) → Fin (tcTables nBuf tb) → BufTy
  | .hbm, ⟨0, _⟩ => ⟨S20000x128, .f32⟩
  | .hbm, ⟨1, _⟩ => ⟨S300000, .i32⟩
  | .hbm, ⟨2, _⟩ => ⟨S300000, .i32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x16, .f32⟩
  | .hbm, ⟨12, _⟩ => ⟨S16, .f32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x128, .f32⟩
  | .hbm, ⟨22, _⟩ => ⟨S_, .i32⟩
  | .hbm, ⟨23, _⟩ => ⟨S300000, .i32⟩
  | .hbm, ⟨24, _⟩ => ⟨S300000, .i1⟩
  | .hbm, ⟨25, _⟩ => ⟨S_, .i32⟩
  | .hbm, ⟨26, _⟩ => ⟨S300000, .i32⟩
  | .hbm, ⟨27, _⟩ => ⟨S300000, .i32⟩
  | .hbm, ⟨28, _⟩ => ⟨S300000, .i32⟩
  | .hbm, ⟨29, _⟩ => ⟨S300000x1, .i32⟩
  | .hbm, ⟨30, _⟩ => ⟨S300000x128, .f32⟩
  | .hbm, ⟨31, _⟩ => ⟨S128x64, .f32⟩
  | .hbm, ⟨32, _⟩ => ⟨S128x64, .f32⟩
  | .hbm, ⟨33, _⟩ => ⟨S300000x256, .f32⟩
  | .hbm, ⟨34, _⟩ => ⟨S300000x16x16, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S128x64, .f32⟩
  | .local _ .vmem, ⟨5, _⟩ => ⟨S128x64, .f32⟩
  | .local _ .vmem, ⟨6, _⟩ => ⟨S64, .f32⟩
  | .local _ .vmem, ⟨7, _⟩ => ⟨S64, .f32⟩
  | .local _ .vmem, ⟨8, _⟩ => ⟨S64, .f32⟩
  | .local _ .vmem, ⟨9, _⟩ => ⟨S64x32, .f32⟩
  | .local _ .vmem, ⟨10, _⟩ => ⟨S32, .f32⟩
  | .local _ .vmem, ⟨11, _⟩ => ⟨S32, .f32⟩
  | .local _ .vmem, ⟨12, _⟩ => ⟨S32, .f32⟩
  | .local _ .vmem, ⟨13, _⟩ => ⟨S32x16, .f32⟩
  | .local _ .vmem, ⟨14, _⟩ => ⟨S16, .f32⟩
  | .local _ .vmem, ⟨15, _⟩ => ⟨S6000x256, .f32⟩
  | .local _ .vmem, ⟨16, _⟩ => ⟨S6000x256, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6000x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  slices_S256x64_S128x64_0_0 : S256x64.Slices ![0, 0] S128x64
  slices_S256x64_S128x64_128_0 : S256x64.Slices ![128, 0] S128x64
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S6000x64 : S1x64.Broadcasts S6000x64
  reduces_S6000x64_S6000 : S6000x64.Reduces [1] S6000
  shapeCasts_S6000_S6000x1 : S6000.ShapeCasts S6000x1
  broadcasts_S6000x1_S6000x64 : S6000x1.Broadcasts S6000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S6000x32 : S1x32.Broadcasts S6000x32
  reduces_S6000x32_S6000 : S6000x32.Reduces [1] S6000
  broadcasts_S6000x1_S6000x32 : S6000x1.Broadcasts S6000x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S6000x16 : S1x16.Broadcasts S6000x16
  iota_S16x16_d0_w32 : S16x16.Iotas .tc 32 [0]
  iota_S16x16_d1_w32 : S16x16.Iotas .tc 32 [1]
  natLt_1_32 : 1 < 32
  shapeCasts_S6000x16_S6000x16x1 : S6000x16.ShapeCasts S6000x16x1
  shapeCasts_S16x16_S1x16x16 : S16x16.ShapeCasts S1x16x16
  broadcasts_S6000x16x1_S6000x16x16 : S6000x16x1.Broadcasts S6000x16x16
  broadcasts_S1x16x16_S6000x16x16 : S1x16x16.Broadcasts S6000x16x16
  shapeCasts_S6000x16x16_S6000x256 : S6000x16x16.ShapeCasts S6000x256
  inb_S6000x256_S6000x256_0_0 : ∀ a, (![0, 0] : Fin 2 → Nat) a + S6000x256.size a ≤ S6000x256.size a
  h_S6000x256 : 0 < S6000x256.numel
  shapeCasts_S300000x256_S300000x16x16 : S300000x256.ShapeCasts S300000x16x16
  gather_S20000x128_S300000x1_S300000x128_1_0_n_n_0_1_1128_wf : GatherDims.WF S20000x128 S300000x1 S300000x128 [1] [0] [] [0] [] 1 ![1, 128]
  dot_S6000x128_S128x64_S6000x64_1_0_0_1_n_n_wf : DotDims.WF S6000x128 S128x64 S6000x64 [1] [0] [0] [1] [] []
  dot_S6000x64_S64x32_S6000x32_1_0_0_1_n_n_wf : DotDims.WF S6000x64 S64x32 S6000x32 [1] [0] [0] [1] [] []
  dot_S6000x32_S32x16_S6000x16_1_0_0_1_n_n_wf : DotDims.WF S6000x32 S32x16 S6000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S300000x128.size a
  hwx0_0 : ∀ i : grid0.Coords, EltTy.bits .f32 = 32 ∨ (Rect.block (s := S300000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S300000x128.size a
  hwx0_1 : ∀ i : grid0.Coords, EltTy.bits .f32 = 32 ∨ (Rect.block (s := S300000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x16.size a ≤ S32x16.size a
  hwx0_11 : ∀ i : grid0.Coords, EltTy.bits .f32 = 32 ∨ (Rect.block (s := S32x16) S32x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16.size a ≤ S16.size a
  hwx0_12 : ∀ i : grid0.Coords, EltTy.bits .f32 = 32 ∨ (Rect.block (s := S16) S16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6000x256.size a ≤ S300000x256.size a
  hwx0_13 : ∀ i : grid0.Coords, EltTy.bits .f32 = 32 ∨ (Rect.block (s := S300000x256) S6000x256.size (cc0_transform_13 i) (hinb0_13 i)).WholeWords (EltTy.packing .f32)

variable [Facts₀]

def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def dot_S6000x128_S128x64_S6000x64_1_0_0_1_n_n : DotDims S6000x128 S128x64 S6000x64 where
  lhsContracting := [1]
  rhsContracting := [0]
  lhsNonContracting := [0]
  rhsNonContracting := [1]
  lhsBatch := []
  rhsBatch := []
  wf := dot_S6000x128_S128x64_S6000x64_1_0_0_1_n_n_wf
def dot_S6000x64_S64x32_S6000x32_1_0_0_1_n_n : DotDims S6000x64 S64x32 S6000x32 where
  lhsContracting := [1]
  rhsContracting := [0]
  lhsNonContracting := [0]
  rhsNonContracting := [1]
  lhsBatch := []
  rhsBatch := []
  wf := dot_S6000x64_S64x32_S6000x32_1_0_0_1_n_n_wf
def dot_S6000x32_S32x16_S6000x16_1_0_0_1_n_n : DotDims S6000x32 S32x16 S6000x16 where
  lhsContracting := [1]
  rhsContracting := [0]
  lhsNonContracting := [0]
  rhsNonContracting := [1]
  lhsBatch := []
  rhsBatch := []
  wf := dot_S6000x32_S32x16_S6000x16_1_0_0_1_n_n_wf

abbrev win0_0 : Pipeline.Window sig grid0 :=
  Pipeline.Window.ofSpec (Memref.whole main_v6) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S6000x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S20000x128 : Shape := ⟨2, ![20000, 128]⟩
abbrev S300000 : Shape := ⟨1, ![300000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩
abbrev S300000x1 : Shape := ⟨2, ![300000, 1]⟩
abbrev S300000x128 : Shape := ⟨2, ![300000, 128]⟩
abbrev S300000x256 : Shape := ⟨2, ![300000, 256]⟩
abbrev S300000x64 : Shape := ⟨2, ![300000, 64]⟩
abbrev S1x64 : Shape := ⟨2, ![1, 64]⟩
abbrev S300000x32 : Shape := ⟨2, ![300000, 32]⟩
abbrev S1x32 : Shape := ⟨2, ![1, 32]⟩
abbrev S300000x16 : Shape := ⟨2, ![300000, 16]⟩
abbrev S1x16 : Shape := ⟨2, ![1, 16]⟩
abbrev S300000x16x1 : Shape := ⟨3, ![300000, 16, 1]⟩
abbrev S16x16 : Shape := ⟨2, ![16, 16]⟩
abbrev S1x16x16 : Shape := ⟨3, ![1, 16, 16]⟩
abbrev S300000x16x16 : Shape := ⟨3, ![300000, 16, 16]⟩

abbrev nBuf : Space → Nat
  | .hbm => 120
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S300000, .i32⟩
  | .hbm, ⟨2, _⟩ => ⟨S300000, .i32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x16, .f32⟩
  | .hbm, ⟨12, _⟩ => ⟨S16, .f32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x128, .f32⟩
  | .hbm, ⟨22, _⟩ => ⟨S_, .i32⟩
  | .hbm, ⟨23, _⟩ => ⟨S300000, .i32⟩
  | .hbm, ⟨24, _⟩ => ⟨S300000, .i1⟩
  | .hbm, ⟨25, _⟩ => ⟨S_, .i32⟩
  | .hbm, ⟨26, _⟩ => ⟨S300000, .i32⟩
  | .hbm, ⟨27, _⟩ => ⟨S300000, .i32⟩
  | .hbm, ⟨28, _⟩ => ⟨S300000, .i32⟩
  | .hbm, ⟨29, _⟩ => ⟨S300000x1, .i32⟩
  | .hbm, ⟨30, _⟩ => ⟨S300000x128, .f32⟩
  | .hbm, ⟨31, _⟩ => ⟨S300000x256, .f32⟩
  | .hbm, ⟨32, _⟩ => ⟨S300000x64, .f32⟩
  | .hbm, ⟨33, _⟩ => ⟨S1x64, .f32⟩
  | .hbm, ⟨34, _⟩ => ⟨S300000x64, .f32⟩
  | .hbm, ⟨35, _⟩ => ⟨S300000x64, .f32⟩
  | .hbm, ⟨36, _⟩ => ⟨S_, .f32⟩
  | .hbm, ⟨37, _⟩ => ⟨S300000, .f32⟩
  | .hbm, ⟨38, _⟩ => ⟨S300000x1, .f32⟩
  | .hbm, ⟨39, _⟩ => ⟨S_, .f32⟩
  | .hbm, ⟨40, _⟩ => ⟨S300000x1, .f32⟩
  | .hbm, ⟨41, _⟩ => ⟨S300000x1, .f32⟩
  | .hbm, ⟨42, _⟩ => ⟨S300000x64, .f32⟩
  | .hbm, ⟨43, _⟩ => ⟨S300000x64, .f32⟩
  | .hbm, ⟨44, _⟩ => ⟨S300000x64, .f32⟩
  | .hbm, ⟨45, _⟩ => ⟨S_, .f32⟩
  | .hbm, ⟨46, _⟩ => ⟨S300000, .f32⟩
  | .hbm, ⟨47, _⟩ => ⟨S300000x1, .f32⟩
  | .hbm, ⟨48, _⟩ => ⟨S_, .f32⟩
  | .hbm, ⟨49, _⟩ => ⟨S300000x1, .f32⟩
  | .hbm, ⟨50, _⟩ => ⟨S300000x1, .f32⟩
  | .hbm, ⟨51, _⟩ => ⟨S300000x64, .f32⟩
  | .hbm, ⟨52, _⟩ => ⟨S300000x64, .f32⟩
  | .hbm, ⟨53, _⟩ => ⟨S_, .f32⟩
  | .hbm, ⟨54, _⟩ => ⟨S300000x1, .f32⟩
  | .hbm, ⟨55, _⟩ => ⟨S300000x1, .f32⟩
  | .hbm, ⟨56, _⟩ => ⟨S300000x1, .f32⟩
  | .hbm, ⟨57, _⟩ => ⟨S300000x64, .f32⟩
  | .hbm, ⟨58, _⟩ => ⟨S300000x64, .f32⟩
  | .hbm, ⟨59, _⟩ => ⟨S1x64, .f32⟩
  | .hbm, ⟨60, _⟩ => ⟨S300000x64, .f32⟩
  | .hbm, ⟨61, _⟩ => ⟨S300000x64, .f32⟩
  | .hbm, ⟨62, _⟩ => ⟨S1x64, .f32⟩
  | .hbm, ⟨63, _⟩ => ⟨S300000x64, .f32⟩
  | .hbm, ⟨64, _⟩ => ⟨S300000x64, .f32⟩
  | .hbm, ⟨65, _⟩ => ⟨S_, .f32⟩
  | .hbm, ⟨66, _⟩ => ⟨S300000x64, .f32⟩
  | .hbm, ⟨67, _⟩ => ⟨S300000x64, .f32⟩
  | .hbm, ⟨68, _⟩ => ⟨S300000x32, .f32⟩
  | .hbm, ⟨69, _⟩ => ⟨S1x32, .f32⟩
  | .hbm, ⟨70, _⟩ => ⟨S300000x32, .f32⟩
  | .hbm, ⟨71, _⟩ => ⟨S300000x32, .f32⟩
  | .hbm, ⟨72, _⟩ => ⟨S_, .f32⟩
  | .hbm, ⟨73, _⟩ => ⟨S300000, .f32⟩
  | .hbm, ⟨74, _⟩ => ⟨S300000x1, .f32⟩
  | .hbm, ⟨75, _⟩ => ⟨S_, .f32⟩
  | .hbm, ⟨76, _⟩ => ⟨S300000x1, .f32⟩
  | .hbm, ⟨77, _⟩ => ⟨S300000x1, .f32⟩
  | .hbm, ⟨78, _⟩ => ⟨S300000x32, .f32⟩
  | .hbm, ⟨79, _⟩ => ⟨S300000x32, .f32⟩
  | .hbm, ⟨80, _⟩ => ⟨S300000x32, .f32⟩
  | .hbm, ⟨81, _⟩ => ⟨S_, .f32⟩
  | .hbm, ⟨82, _⟩ => ⟨S300000, .f32⟩
  | .hbm, ⟨83, _⟩ => ⟨S300000x1, .f32⟩
  | .hbm, ⟨84, _⟩ => ⟨S_, .f32⟩
  | .hbm, ⟨85, _⟩ => ⟨S300000x1, .f32⟩
  | .hbm, ⟨86, _⟩ => ⟨S300000x1, .f32⟩
  | .hbm, ⟨87, _⟩ => ⟨S300000x32, .f32⟩
  | .hbm, ⟨88, _⟩ => ⟨S300000x32, .f32⟩
  | .hbm, ⟨89, _⟩ => ⟨S_, .f32⟩
  | .hbm, ⟨90, _⟩ => ⟨S300000x1, .f32⟩
  | .hbm, ⟨91, _⟩ => ⟨S300000x1, .f32⟩
  | .hbm, ⟨92, _⟩ => ⟨S300000x1, .f32⟩
  | .hbm, ⟨93, _⟩ => ⟨S300000x32, .f32⟩
  | .hbm, ⟨94, _⟩ => ⟨S300000x32, .f32⟩
  | .hbm, ⟨95, _⟩ => ⟨S1x32, .f32⟩
  | .hbm, ⟨96, _⟩ => ⟨S300000x32, .f32⟩
  | .hbm, ⟨97, _⟩ => ⟨S300000x32, .f32⟩
  | .hbm, ⟨98, _⟩ => ⟨S1x32, .f32⟩
  | .hbm, ⟨99, _⟩ => ⟨S300000x32, .f32⟩
  | .hbm, ⟨100, _⟩ => ⟨S300000x32, .f32⟩
  | .hbm, ⟨101, _⟩ => ⟨S_, .f32⟩
  | .hbm, ⟨102, _⟩ => ⟨S300000x32, .f32⟩
  | .hbm, ⟨103, _⟩ => ⟨S300000x32, .f32⟩
  | .hbm, ⟨104, _⟩ => ⟨S300000x16, .f32⟩
  | .hbm, ⟨105, _⟩ => ⟨S1x16, .f32⟩
  | .hbm, ⟨106, _⟩ => ⟨S300000x16, .f32⟩
  | .hbm, ⟨107, _⟩ => ⟨S300000x16, .f32⟩
  | .hbm, ⟨108, _⟩ => ⟨S300000x16x1, .f32⟩
  | .hbm, ⟨109, _⟩ => ⟨S16x16, .i32⟩
  | .hbm, ⟨110, _⟩ => ⟨S16x16, .i32⟩
  | .hbm, ⟨111, _⟩ => ⟨S_, .i32⟩
  | .hbm, ⟨112, _⟩ => ⟨S16x16, .i32⟩
  | .hbm, ⟨113, _⟩ => ⟨S16x16, .i32⟩
  | .hbm, ⟨114, _⟩ => ⟨S16x16, .i1⟩
  | .hbm, ⟨115, _⟩ => ⟨S16x16, .f32⟩
  | .hbm, ⟨116, _⟩ => ⟨S1x16x16, .f32⟩
  | .hbm, ⟨117, _⟩ => ⟨S300000x16x16, .f32⟩
  | .hbm, ⟨118, _⟩ => ⟨S300000x16x16, .f32⟩
  | .hbm, ⟨119, _⟩ => ⟨S300000x16x16, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_cst : Ref sig .tc := ⟨.hbm, 65, rfl⟩
abbrev main_call0_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call1_cst : Ref sig .tc := ⟨.hbm, 101, rfl⟩
abbrev main_call1_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_12 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x256_d1 : Shape.Concatenates [S300000x128, S300000x128] S300000x256 1
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  reducesTo_S300000x64_S300000_d1 : S300000x64.ReducesTo [1] S300000
  h_S_ : 0 < S_.numel
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  bcast_S_S300000x64 : S_.BroadcastsInDim S300000x64 (![] : Fin 0 → Fin S300000x64.rank)
  bcast_S32_S1x32_1 : S32.BroadcastsInDim S1x32 (![1] : Fin 1 → Fin S1x32.rank)
  bcast_S1x32_S300000x32_0_1 : S1x32.BroadcastsInDim S300000x32 (![0, 1] : Fin 2 → Fin S300000x32.rank)
  reducesTo_S300000x32_S300000_d1 : S300000x32.ReducesTo [1] S300000
  bcast_S300000x1_S300000x32_0_1 : S300000x1.BroadcastsInDim S300000x32 (![0, 1] : Fin 2 → Fin S300000x32.rank)
  bcast_S_S300000x32 : S_.BroadcastsInDim S300000x32 (![] : Fin 0 → Fin S300000x32.rank)
  bcast_S16_S1x16_1 : S16.BroadcastsInDim S1x16 (![1] : Fin 1 → Fin S1x16.rank)
  bcast_S1x16_S300000x16_0_1 : S1x16.BroadcastsInDim S300000x16 (![0, 1] : Fin 2 → Fin S300000x16.rank)
  bcast_S300000x16_S300000x16x1_0_1 : S300000x16.BroadcastsInDim S300000x16x1 (![0, 1] : Fin 2 → Fin S300000x16x1.rank)
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S300000x16x1_S300000x16x16_0_1_2 : S300000x16x1.BroadcastsInDim S300000x16x16 (![0, 1, 2] : Fin 3 → Fin S300000x16x16.rank)
  bcast_S1x16x16_S300000x16x16_0_1_2 : S1x16x16.BroadcastsInDim S300000x16x16 (![0, 1, 2] : Fin 3 → Fin S300000x16x16.rank)
  gather_S20000x128_S300000x1_S300000x128_1_0_n_n_0_1_1128_wf : GatherDims.WF S20000x128 S300000x1 S300000x128 [1] [0] [] [0] [] 1 ![1, 128]
  dot_S300000x256_S256x64_S300000x64_1_0_0_1_n_n_wf : DotDims.WF S300000x256 S256x64 S300000x64 [1] [0] [0] [1] [] []
  dot_S300000x64_S64x32_S300000x32_1_0_0_1_n_n_wf : DotDims.WF S300000x64 S64x32 S300000x32 [1] [0] [0] [1] [] []
  dot_S300000x32_S32x16_S300000x16_1_0_0_1_n_n_wf : DotDims.WF S300000x32 S32x16 S300000x16 [1] [0] [0] [1] [] []

variable [Facts₀]

def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def dot_S300000x256_S256x64_S300000x64_1_0_0_1_n_n : DotDims S300000x256 S256x64 S300000x64 where
  lhsContracting := [1]
  rhsContracting := [0]
  lhsNonContracting := [0]
  rhsNonContracting := [1]
  lhsBatch := []
  rhsBatch := []
  wf := dot_S300000x256_S256x64_S300000x64_1_0_0_1_n_n_wf
def dot_S300000x64_S64x32_S300000x32_1_0_0_1_n_n : DotDims S300000x64 S64x32 S300000x32 where
  lhsContracting := [1]
  rhsContracting := [0]
  lhsNonContracting := [0]
  rhsNonContracting := [1]
  lhsBatch := []
  rhsBatch := []
  wf := dot_S300000x64_S64x32_S300000x32_1_0_0_1_n_n_wf
def dot_S300000x32_S32x16_S300000x16_1_0_0_1_n_n : DotDims S300000x32 S32x16 S300000x16 where
  lhsContracting := [1]
  rhsContracting := [0]
  lhsNonContracting := [0]
  rhsNonContracting := [1]
  lhsBatch := []
  rhsBatch := []
  wf := dot_S300000x32_S32x16_S300000x16_1_0_0_1_n_n_wf

class Facts : Prop extends Facts₀ where

variable [Facts]
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171774_j81698867905243_2_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.LibHeadSplit.lean ====
/-
  A matrix product whose left operand is two matrices laid side by side.

  If the left operand of `[M, a+b] × [a+b, N]` is the concatenation along the column axis of `x : [M, a]` and
  `y : [M, b]`, then entry `(p, q)` of the product is
  `∑ k < a+b, [x | y] (p, k) · w (k, q) = ∑ k < a, x (p, k) · w (k, q) + ∑ k < b, y (p, k) · w (a + k, q)`:
  the contraction sum is split at `a`, and every term stays what it was.  This is a regrouping of a finite sum in a
  commutative additive monoid, so it holds over the extended reals without any real-valuedness hypothesis.

  The host form: the right operand is a transposed `[N, a+b]` matrix `lp`; its top `a` rows are the transposed block
  of `lp`'s first `a` columns, and its bottom `b` rows the transposed block of the remaining columns.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171774_j81698867905243_2_alg».proof.Proof.LibDenseLayers

noncomputable section

namespace Cert.Layers

open Idealize.ShloMosaic Idealize.ShloMosaic.ValueIdx

variable {α : Type}

/-! ## A sum over `a + b` terms is the sum over the first `a` plus the sum over the last `b` -/

/-- A sum indexed by `Fin c`, `c = a + b`, split at `a`. -/
theorem sum_fin_split {a b c : Nat} (hc : c = a + b) (f : Fin c → EReal) :
    ∑ k : Fin c, f k
      = ∑ k : Fin a, f ⟨k.val, by have := k.isLt; omega⟩ + ∑ k : Fin b, f ⟨a + k.val, by have := k.isLt; omega⟩ := by
  subst hc
  rw [Fin.sum_univ_add]
  rfl

/-! ## Two arrays laid side by side, read at an index -/

/-- Two row-aligned matrices laid side by side, read in a column of the first. -/
theorem concat2_axis1_left {M a b c : Nat} (x : (⟨2, ![M, a]⟩ : Shape).Idx → α) (y : (⟨2, ![M, b]⟩ : Shape).Idx → α)
    (h : Shape.Concatenates [(⟨2, ![M, a]⟩ : Shape), ⟨2, ![M, b]⟩] ⟨2, ![M, c]⟩ 1)
    (p : Fin M) (k : Fin c) (k' : Fin a) (hk : k'.val = k.val) :
    concatenate ⟨2, ![M, c]⟩ 1 [⟨⟨2, ![M, a]⟩, x⟩, ⟨⟨2, ![M, b]⟩, y⟩] h (ix2 p k) = x (ix2 p k') :=
  concatenate_pair_apply_left 1 x y h (ix2 p k) rfl (ix2 p k') (fun ax => by
    match ax with
    | ⟨0, _⟩ => rfl
    | ⟨1, _⟩ => exact hk)

/-- Two row-aligned matrices laid side by side, read in a column of the second. -/
theorem concat2_axis1_right {M a b c : Nat} (x : (⟨2, ![M, a]⟩ : Shape).Idx → α) (y : (⟨2, ![M, b]⟩ : Shape).Idx → α)
    (h : Shape.Concatenates [(⟨2, ![M, a]⟩ : Shape), ⟨2, ![M, b]⟩] ⟨2, ![M, c]⟩ 1)
    (p : Fin M) (k : Fin c) (k' : Fin b) (hk : k'.val + a = k.val) :
    concatenate ⟨2, ![M, c]⟩ 1 [⟨⟨2, ![M, a]⟩, x⟩, ⟨⟨2, ![M, b]⟩, y⟩] h (ix2 p k) = y (ix2 p k') :=
  concatenate_pair_apply_right 1 x y h (ix2 p k) rfl rfl (ix2 p k') (fun ax hne => by
    match ax with
    | ⟨0, _⟩ => rfl
    | ⟨1, _⟩ => exact absurd rfl hne) hk

/-! ## The product of a side-by-side pair with a matrix -/

/-- The rows `0 … a-1` of a matrix with `c = a + b` rows. -/
def topRows {a b c N : Nat} (hc : c = a + b) (w : (⟨2, ![c, N]⟩ : Shape).Idx → EReal) : (⟨2, ![a, N]⟩ : Shape).Idx → EReal :=
  fun i => w (ix2 (n1 := N) ⟨(i 0).val, by have h0 : (i 0).val < a := (i 0).isLt; omega⟩ (i 1))

/-- The rows `a … a+b-1` of a matrix with `c = a + b` rows. -/
def bottomRows {a b c N : Nat} (hc : c = a + b) (w : (⟨2, ![c, N]⟩ : Shape).Idx → EReal) : (⟨2, ![b, N]⟩ : Shape).Idx → EReal :=
  fun i => w (ix2 (n1 := N) ⟨a + (i 0).val, by have h0 : (i 0).val < b := (i 0).isLt; omega⟩ (i 1))

/-- `[x | y] · w = x · (top rows of w) + y · (bottom rows of w)`, entry by entry: the contraction sum over `a + b`
    terms is split at `a`; no term is changed, so no law of arithmetic beyond the regrouping of a finite sum is used. -/
theorem project_concat {M a b c N : Nat} (hc : c = a + b)
    (x : (⟨2, ![M, a]⟩ : Shape).Idx → EReal) (y : (⟨2, ![M, b]⟩ : Shape).Idx → EReal)
    (w : (⟨2, ![c, N]⟩ : Shape).Idx → EReal)
    (h : Shape.Concatenates [(⟨2, ![M, a]⟩ : Shape), ⟨2, ![M, b]⟩] ⟨2, ![M, c]⟩ 1) :
    project (concatenate ⟨2, ![M, c]⟩ 1 [⟨⟨2, ![M, a]⟩, x⟩, ⟨⟨2, ![M, b]⟩, y⟩] h) w
      = fun i => project x (topRows hc w) i + project y (bottomRows hc w) i := by
  funext i
  obtain ⟨p, q, rfl⟩ : ∃ (p : Fin M) (q : Fin N), i = ix2 p q := ⟨i 0, i 1, eq_ix2 i⟩
  show project _ w (ix2 p q) = project x _ (ix2 p q) + project y _ (ix2 p q)
  rw [project_apply, project_apply, project_apply, sum_fin_split hc]
  congr 1
  · refine Finset.sum_congr rfl fun k _ => ?_
    rw [concat2_axis1_left x y h p ⟨k.val, by have := k.isLt; omega⟩ k rfl]
    rfl
  · refine Finset.sum_congr rfl fun k _ => ?_
    rw [concat2_axis1_right x y h p ⟨a + k.val, by have := k.isLt; omega⟩ k (Nat.add_comm _ _)]
    rfl

/-! ## The host form: one product with the transposed matrix against two products with its transposed column blocks -/

/-- The transposed block of columns `0 … a-1` of `lp` is the top rows of `lp` transposed. -/
theorem transpose_slice_left {a b c N : Nat} (hc : c = a + b) (lp : (⟨2, ![N, c]⟩ : Shape).Idx → EReal)
    (htr : (⟨2, ![N, c]⟩ : Shape).Transposes [1, 0] ⟨2, ![c, N]⟩)
    (hs : (⟨2, ![N, c]⟩ : Shape).Slices ![0, 0] ⟨2, ![N, a]⟩)
    (ht : (⟨2, ![N, a]⟩ : Shape).Transposes [1, 0] ⟨2, ![a, N]⟩) :
    transpose ⟨2, ![a, N]⟩ [1, 0] (extractStridedSlice ⟨2, ![N, a]⟩ ![0, 0] lp hs) ht
      = topRows hc (transpose ⟨2, ![c, N]⟩ [1, 0] lp htr) := by
  funext i
  obtain ⟨k, q, rfl⟩ : ∃ (k : Fin a) (q : Fin N), i = ix2 k q := ⟨i 0, i 1, eq_ix2 i⟩
  show _ = transpose ⟨2, ![c, N]⟩ [1, 0] lp htr (ix2 ⟨k.val, _⟩ q)
  rw [transpose_ix2_apply, transpose_ix2_apply, slice2_axis1_apply 0 lp hs q k ⟨k.val, by have := k.isLt; omega⟩ (Nat.zero_add _).symm]

/-- The transposed block of columns `a … a+b-1` of `lp` is the bottom rows of `lp` transposed. -/
theorem transpose_slice_right {a b c N : Nat} (hc : c = a + b) (lp : (⟨2, ![N, c]⟩ : Shape).Idx → EReal)
    (htr : (⟨2, ![N, c]⟩ : Shape).Transposes [1, 0] ⟨2, ![c, N]⟩)
    (hs : (⟨2, ![N, c]⟩ : Shape).Slices ![0, a] ⟨2, ![N, b]⟩)
    (ht : (⟨2, ![N, b]⟩ : Shape).Transposes [1, 0] ⟨2, ![b, N]⟩) :
    transpose ⟨2, ![b, N]⟩ [1, 0] (extractStridedSlice ⟨2, ![N, b]⟩ ![0, a] lp hs) ht
      = bottomRows hc (transpose ⟨2, ![c, N]⟩ [1, 0] lp htr) := by
  funext i
  obtain ⟨k, q, rfl⟩ : ∃ (k : Fin b) (q : Fin N), i = ix2 k q := ⟨i 0, i 1, eq_ix2 i⟩
  show _ = transpose ⟨2, ![c, N]⟩ [1, 0] lp htr (ix2 ⟨a + k.val, _⟩ q)
  rw [transpose_ix2_apply, transpose_ix2_apply, slice2_axis1_apply a lp hs q k ⟨a + k.val, by have := k.isLt; omega⟩ rfl]

/-- The sum of the two host products with the transposed column blocks of `lp` is the one host product of the
    side-by-side pair with the transposed `lp`. -/
theorem head_split {M a b c N : Nat} (hc : c = a + b)
    (dA : DotDims ⟨2, ![M, a]⟩ ⟨2, ![a, N]⟩ ⟨2, ![M, N]⟩) (hdA : dA = DotDims.plain M a N)
    (dB : DotDims ⟨2, ![M, b]⟩ ⟨2, ![b, N]⟩ ⟨2, ![M, N]⟩) (hdB : dB = DotDims.plain M b N)
    (dR : DotDims ⟨2, ![M, c]⟩ ⟨2, ![c, N]⟩ ⟨2, ![M, N]⟩) (hdR : dR = DotDims.plain M c N)
    (prec : Option ContractPrecision)
    (xs : FVec Ideal ⟨2, ![M, a]⟩ .f32) (xh : FVec Ideal ⟨2, ![M, b]⟩ .f32) (lp : FVec Ideal ⟨2, ![N, c]⟩ .f32)
    (hcat : Shape.Concatenates [(⟨2, ![M, a]⟩ : Shape), ⟨2, ![M, b]⟩] ⟨2, ![M, c]⟩ 1)
    (htr : (⟨2, ![N, c]⟩ : Shape).Transposes [1, 0] ⟨2, ![c, N]⟩)
    (hsA : (⟨2, ![N, c]⟩ : Shape).Slices ![0, 0] ⟨2, ![N, a]⟩)
    (hsB : (⟨2, ![N, c]⟩ : Shape).Slices ![0, a] ⟨2, ![N, b]⟩)
    (htA : (⟨2, ![N, a]⟩ : Shape).Transposes [1, 0] ⟨2, ![a, N]⟩)
    (htB : (⟨2, ![N, b]⟩ : Shape).Transposes [1, 0] ⟨2, ![b, N]⟩) :
    addf (Host.dotGeneral dA prec xs (transpose ⟨2, ![a, N]⟩ [1, 0] (extractStridedSlice ⟨2, ![N, a]⟩ ![0, 0] lp hsA) htA))
        (Host.dotGeneral dB prec xh (transpose ⟨2, ![b, N]⟩ [1, 0] (extractStridedSlice ⟨2, ![N, b]⟩ ![0, a] lp hsB) htB))
      = Host.dotGeneral dR prec (concatenate ⟨2, ![M, c]⟩ 1 [⟨⟨2, ![M, a]⟩, xs⟩, ⟨⟨2, ![M, b]⟩, xh⟩] hcat)
          (transpose ⟨2, ![c, N]⟩ [1, 0] lp htr) := by
  rw [dotGeneral_eq_project dA hdA, dotGeneral_eq_project dB hdB, dotGeneral_eq_project dR hdR,
    transpose_slice_left hc lp htr hsA htA, transpose_slice_right hc lp htr hsB htB, project_concat hc xs xh _ hcat]
  rfl

end Cert.Layers

end
-- ==== Proof.LibRowLocal.lean ====
/-
  Dense layers act row by row.

  Say that an array `a'` of `B` rows holds rows of an array `a` of `M` rows along a map `r : Fin B → Fin M` when row `p` of
  `a'` is row `r p` of `a`, entry by entry.  A projection `x · w`, the addition of a bias row, and the clamp at zero each
  compute row `p` of their result from row `p` of their operand alone, so each carries this relation from its operand to
  its result.  This is what lets a computation done block of rows by block of rows be compared with the same computation
  done on the whole array: the block's rows are rows of the whole along `p ↦ offset + p`.
-/
import proofs.«171774_j81698867905243_2_alg».proof.Proof.LibDenseLayers

noncomputable section

namespace Cert.Layers

open Idealize.ShloMosaic Idealize.ShloMosaic.ValueIdx

variable {B M K N : Nat}

/-- Row `p` of `a'` is row `r p` of `a`. -/
def RowsOf (r : Fin B → Fin M) (a' : (⟨2, ![B, K]⟩ : Shape).Idx → EReal) (a : (⟨2, ![M, K]⟩ : Shape).Idx → EReal) : Prop :=
  ∀ (p : Fin B) (k : Fin K), a' (ix2 p k) = a (ix2 (r p) k)

/-- The projection of rows is the rows of the projection: entry `(p, q)` sums over row `p` only. -/
theorem RowsOf.project {r : Fin B → Fin M} {a' : (⟨2, ![B, K]⟩ : Shape).Idx → EReal} {a : (⟨2, ![M, K]⟩ : Shape).Idx → EReal}
    (h : RowsOf r a' a) (w : (⟨2, ![K, N]⟩ : Shape).Idx → EReal) : RowsOf r (project a' w) (project a w) := by
  intro p q
  rw [project_apply, project_apply]
  exact Finset.sum_congr rfl fun k _ => by rw [h p k]

/-- Adding one bias row to every row commutes with taking rows. -/
theorem RowsOf.addRow {r : Fin B → Fin M} {a' : (⟨2, ![B, N]⟩ : Shape).Idx → EReal} {a : (⟨2, ![M, N]⟩ : Shape).Idx → EReal}
    (h : RowsOf r a' a) (b : (⟨2, ![1, N]⟩ : Shape).Idx → EReal) : RowsOf r (addRow a' b) (addRow a b) := by
  intro p q
  show a' (ix2 p q) + b (ix2 (0 : Fin 1) q) = a (ix2 (r p) q) + b (ix2 (0 : Fin 1) q)
  rw [h p q]

/-- So does adding the bias row and clamping at zero. -/
theorem RowsOf.addRowClamp {r : Fin B → Fin M} {a' : (⟨2, ![B, N]⟩ : Shape).Idx → EReal} {a : (⟨2, ![M, N]⟩ : Shape).Idx → EReal}
    (h : RowsOf r a' a) (b : (⟨2, ![1, N]⟩ : Shape).Idx → EReal) : RowsOf r (addRowClamp a' b) (addRowClamp a b) := by
  intro p q
  show max (a' (ix2 p q) + b (ix2 (0 : Fin 1) q)) 0 = max (a (ix2 (r p) q) + b (ix2 (0 : Fin 1) q)) 0
  rw [h p q]

end Cert.Layers

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibLayerNorm.lean ====
/-
  Row-wise normalisation of an `[M, C]` array (the core of a layer normalisation) as one index-by-index function over the
  extended reals, and the two spellings array programs use for it.

  For a row `z` of length `C`, a count `n` and a shift `ε`:
  * `rowMean n a p` is `(∑ k, a (p, k)) / n`;
  * `centred n a` subtracts from every entry its row's mean;
  * `normalized n ε a` multiplies every centred entry by `rsqrt` of (the row mean of the squared centred entries, plus `ε`);
  * `mulRow a g` multiplies every row entrywise by the one row `g` (shape `[1, C]`).

  A kernel writes the row sums as a lane reduction, casts the vector of sums to a column and broadcasts the column over
  the lanes; a host program reduces with an initial value `0`, and broadcasts twice.  Both are these functions: the same
  sums, differences, quotients and products in the same order, the only law used being `0 + s = s` for the host's initial
  value.  Every function computes row `p` of its result from row `p` of its operand alone, which the last section records.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171774_j81698867905243_2_alg».proof.Proof.LibKeepdims
import proofs.«171774_j81698867905243_2_alg».proof.Proof.LibDenseLayers
import proofs.«171774_j81698867905243_2_alg».proof.Proof.LibRowLocal

noncomputable section

namespace Cert.Layers

open Idealize.ShloMosaic Idealize.ShloMosaic.ValueIdx

variable {B M C : Nat}

/-- The mean of row `p`: its sum divided by the count `n`. -/
def rowMean (n : EReal) (a : (⟨2, ![M, C]⟩ : Shape).Idx → EReal) (p : Fin M) : EReal :=
  Ideal.div (∑ k : Fin C, a (ix2 p k)) n

/-- Every entry minus its row's mean. -/
def centred (n : EReal) (a : (⟨2, ![M, C]⟩ : Shape).Idx → EReal) : (⟨2, ![M, C]⟩ : Shape).Idx → EReal :=
  fun i => a i - rowMean n a (i 0)

/-- Every centred entry times `rsqrt (row mean of the squared centred entries + ε)`. -/
def normalized (n ε : EReal) (a : (⟨2, ![M, C]⟩ : Shape).Idx → EReal) : (⟨2, ![M, C]⟩ : Shape).Idx → EReal :=
  fun i => centred n a i * Ideal.rsqrt (rowMean n (fun j => centred n a j * centred n a j) (i 0) + ε)

/-- Every row multiplied entrywise by the one row `g`. -/
def mulRow (a : (⟨2, ![M, C]⟩ : Shape).Idx → EReal) (g : (⟨2, ![1, C]⟩ : Shape).Idx → EReal) :
    (⟨2, ![M, C]⟩ : Shape).Idx → EReal :=
  fun i => a i * g (ix2 (n1 := C) (0 : Fin 1) (i 1))

/-! ## The kernel's spelling -/

/-- The column of row means as a kernel writes it — a lane reduction, cast to a column, divided by the splat count —
    read at `(p, u)`. -/
theorem kernel_meanCol_apply (a : FVec Ideal ⟨2, ![M, C]⟩ .f32) (nw : BitVec 32)
    (hr : (⟨2, ![M, C]⟩ : Shape).Reduces [1] ⟨1, ![M]⟩) (hc : (⟨1, ![M]⟩ : Shape).ShapeCasts ⟨2, ![M, 1]⟩) (p : Fin M) (u : Fin 1) :
    divf (shapeCast ⟨2, ![M, 1]⟩ (multiReduction .add [1] ⟨1, ![M]⟩ a 0x00000000#32 hr (.inl rfl) rfl) hc)
        (broadcast ⟨2, ![M, 1]⟩ (Scalar.ofBits (F := Ideal) .f32 nw)) (ix2 p u)
      = rowMean (Ideal.ofBits .f32 nw) a p := by
  show Ideal.div (shapeCast ⟨2, ![M, 1]⟩ (multiReduction .add [1] ⟨1, ![M]⟩ a 0x00000000#32 hr (.inl rfl) rfl) hc (ix2 p u))
      (Ideal.ofBits .f32 nw) = Ideal.div (∑ k : Fin C, a (ix2 p k)) (Ideal.ofBits .f32 nw)
  rw [Cert.LibKeepdims.shapeCast_a_a1_apply _ hc p u]
  refine congrArg (Ideal.div · _) ((Ideal.multiReduction_add_single a 0x00000000#32 hr (.inl rfl) rfl (ix1 p)).trans ?_)
  refine Finset.sum_congr rfl fun k _ => congrArg a ?_
  funext ax
  refine Fin.ext ?_
  match ax with
  | ⟨0, _⟩ => rfl
  | ⟨1, _⟩ => rfl

/-- Subtracting the broadcast column of row means is `centred`. -/
theorem kernel_centred (a : FVec Ideal ⟨2, ![M, C]⟩ .f32) (nw : BitVec 32)
    (hr : (⟨2, ![M, C]⟩ : Shape).Reduces [1] ⟨1, ![M]⟩) (hc : (⟨1, ![M]⟩ : Shape).ShapeCasts ⟨2, ![M, 1]⟩) (hb : (⟨2, ![M, 1]⟩ : Shape).Broadcasts ⟨2, ![M, C]⟩) :
    subf a (broadcastTo ⟨2, ![M, C]⟩
        (divf (shapeCast ⟨2, ![M, 1]⟩ (multiReduction .add [1] ⟨1, ![M]⟩ a 0x00000000#32 hr (.inl rfl) rfl) hc)
          (broadcast ⟨2, ![M, 1]⟩ (Scalar.ofBits (F := Ideal) .f32 nw))) hb)
      = centred (Ideal.ofBits .f32 nw) a := by
  funext i
  obtain ⟨p, q, rfl⟩ : ∃ (p : Fin M) (q : Fin C), i = ix2 p q := ⟨i 0, i 1, eq_ix2 i⟩
  show a (ix2 p q) - broadcastTo ⟨2, ![M, C]⟩ _ hb (ix2 p q) = a (ix2 p q) - rowMean (Ideal.ofBits .f32 nw) a p
  rw [Cert.LibKeepdims.broadcastTo_a1_ab_apply _ hb p q, kernel_meanCol_apply a nw hr hc p 0]

/-- The kernel's normalisation — centre, square, mean, add `ε`, `rsqrt`, broadcast, multiply — is `normalized`. -/
theorem kernel_normalized (a : FVec Ideal ⟨2, ![M, C]⟩ .f32) (nw ew : BitVec 32)
    (hr : (⟨2, ![M, C]⟩ : Shape).Reduces [1] ⟨1, ![M]⟩) (hc : (⟨1, ![M]⟩ : Shape).ShapeCasts ⟨2, ![M, 1]⟩) (hb : (⟨2, ![M, 1]⟩ : Shape).Broadcasts ⟨2, ![M, C]⟩)
    (d : FVec Ideal ⟨2, ![M, C]⟩ .f32) (hd : d = centred (Ideal.ofBits .f32 nw) a) :
    mulf d (broadcastTo ⟨2, ![M, C]⟩ (rsqrt (addf
        (divf (shapeCast ⟨2, ![M, 1]⟩ (multiReduction .add [1] ⟨1, ![M]⟩ (mulf d d) 0x00000000#32 hr (.inl rfl) rfl) hc)
          (broadcast ⟨2, ![M, 1]⟩ (Scalar.ofBits (F := Ideal) .f32 nw)))
        (broadcast ⟨2, ![M, 1]⟩ (Scalar.ofBits (F := Ideal) .f32 ew)))) hb)
      = normalized (Ideal.ofBits .f32 nw) (Ideal.ofBits .f32 ew) a := by
  subst hd
  funext i
  obtain ⟨p, q, rfl⟩ : ∃ (p : Fin M) (q : Fin C), i = ix2 p q := ⟨i 0, i 1, eq_ix2 i⟩
  show centred (Ideal.ofBits .f32 nw) a (ix2 p q) * broadcastTo ⟨2, ![M, C]⟩ _ hb (ix2 p q) = _
  rw [Cert.LibKeepdims.broadcastTo_a1_ab_apply _ hb p q]
  show _ * Ideal.rsqrt (divf (shapeCast ⟨2, ![M, 1]⟩ (multiReduction .add [1] ⟨1, ![M]⟩
      (mulf (centred (Ideal.ofBits .f32 nw) a) (centred (Ideal.ofBits .f32 nw) a)) 0x00000000#32 hr (.inl rfl) rfl) hc)
        (broadcast ⟨2, ![M, 1]⟩ (Scalar.ofBits (F := Ideal) .f32 nw)) (ix2 p (0 : Fin 1)) + Ideal.ofBits .f32 ew) = _
  rw [kernel_meanCol_apply _ nw hr hc p 0]
  rfl

/-- A row `[1, C]` broadcast over the rows and multiplied in is `mulRow`. -/
theorem mulf_bcastRow_eq_mulRow (a : FVec Ideal ⟨2, ![M, C]⟩ .f32) (g : FVec Ideal ⟨2, ![1, C]⟩ .f32)
    (hb : (⟨2, ![1, C]⟩ : Shape).Broadcasts ⟨2, ![M, C]⟩) :
    mulf a (broadcastTo ⟨2, ![M, C]⟩ g hb) = mulRow a g := by
  funext i
  obtain ⟨p, q, rfl⟩ : ∃ (p : Fin M) (q : Fin C), i = ix2 p q := ⟨i 0, i 1, eq_ix2 i⟩
  show a (ix2 p q) * broadcastTo ⟨2, ![M, C]⟩ g hb (ix2 p q) = a (ix2 p q) * g (ix2 (0 : Fin 1) q)
  rw [broadcastTo_1b_ab_apply g hb p q]

/-- A row `[1, C]` broadcast over the rows and added is `addRow`. -/
theorem addf_bcastRow_eq_addRow (a : FVec Ideal ⟨2, ![M, C]⟩ .f32) (b : FVec Ideal ⟨2, ![1, C]⟩ .f32)
    (hb : (⟨2, ![1, C]⟩ : Shape).Broadcasts ⟨2, ![M, C]⟩) :
    addf a (broadcastTo ⟨2, ![M, C]⟩ b hb) = addRow a b := by
  funext i
  obtain ⟨p, q, rfl⟩ : ∃ (p : Fin M) (q : Fin C), i = ix2 p q := ⟨i 0, i 1, eq_ix2 i⟩
  show a (ix2 p q) + broadcastTo ⟨2, ![M, C]⟩ b hb (ix2 p q) = a (ix2 p q) + b (ix2 (0 : Fin 1) q)
  rw [broadcastTo_1b_ab_apply b hb p q]

/-- … and followed by the clamp at a splat zero it is `addRowClamp`. -/
theorem clamp_bcastRow_eq_addRowClamp (a : FVec Ideal ⟨2, ![M, C]⟩ .f32) (b : FVec Ideal ⟨2, ![1, C]⟩ .f32)
    (hb : (⟨2, ![1, C]⟩ : Shape).Broadcasts ⟨2, ![M, C]⟩) :
    maximumf (addf a (broadcastTo ⟨2, ![M, C]⟩ b hb)) (broadcast ⟨2, ![M, C]⟩ (Scalar.ofBits (F := Ideal) .f32 0x00000000#32))
      = addRowClamp a b := by
  rw [addf_bcastRow_eq_addRow a b hb]
  funext i
  show max (addRow a b i) (Ideal.ofBits .f32 0x00000000#32) = max (addRow a b i) 0
  rw [Ideal.ofBits_zero_f32]

/-! ## The host's spelling -/

/-- The column of row means as a host program writes it — a reduce from `0`, broadcast to a column, divided by the
    broadcast count — read at `(p, u)`. -/
theorem host_meanCol_apply (a : FVec Ideal ⟨2, ![M, C]⟩ .f32) (nw : BitVec 32)
    (hr' : (⟨2, ![M, C]⟩ : Shape).ReducesTo [1] ⟨1, ![M]⟩) (hr : (⟨2, ![M, C]⟩ : Shape).Reduces [1] ⟨1, ![M]⟩)
    (h0 : 0 < (⟨0, ![]⟩ : Shape).numel)
    (hc : (⟨1, ![M]⟩ : Shape).BroadcastsInDim ⟨2, ![M, 1]⟩ ![0])
    (hn : (⟨0, ![]⟩ : Shape).BroadcastsInDim ⟨2, ![M, 1]⟩ ![]) (p : Fin M) (u : Fin 1) :
    Host.divf (broadcastInDim ⟨2, ![M, 1]⟩ ![0] hc
          (Host.reduceAdd a (constant (F := Ideal) ⟨0, ![]⟩ .f32 0x00000000#32) hr' h0))
        (broadcastInDim ⟨2, ![M, 1]⟩ ![] hn (constant (F := Ideal) ⟨0, ![]⟩ .f32 nw)) (ix2 p u)
      = rowMean (Ideal.ofBits .f32 nw) a p := by
  show Ideal.div (broadcastInDim (s := ⟨1, ![M]⟩) ⟨2, ![M, 1]⟩ ![0] hc _ (ix2 p u)) (broadcastInDim (s := ⟨0, ![]⟩) ⟨2, ![M, 1]⟩ ![] hn _ (ix2 p u))
      = Ideal.div (∑ k : Fin C, a (ix2 p k)) (Ideal.ofBits .f32 nw)
  rw [broadcastInDim_apply ![] hn _ (ix2 p u) ix0 (fun ax => ax.elim0),
    broadcastInDim_apply ![0] hc _ (ix2 p u) (ix1 p) (fun ax => by
      match ax with
      | ⟨0, _⟩ =>
        show p.val = if M = 1 then 0 else p.val
        split
        · have := p.isLt; omega
        · rfl)]
  show Ideal.div (Ideal.hostReduceAdd hr' a (Ideal.ofBits .f32 0x00000000#32) (ix1 p)) (Ideal.ofBits .f32 nw) = _
  rw [Ideal.hostReduceAdd_single hr' hr, Ideal.ofBits_zero_f32, zero_add]
  refine congrArg (Ideal.div · _) (Finset.sum_congr rfl fun k _ => congrArg a ?_)
  funext ax
  refine Fin.ext ?_
  match ax with
  | ⟨0, _⟩ => rfl
  | ⟨1, _⟩ => rfl

/-- A column `[M, 1]` broadcast over the lanes by the host, read at `(p, q)`. -/
theorem host_bcastCol_apply {α : Type} (v : (⟨2, ![M, 1]⟩ : Shape).Idx → α)
    (hb : (⟨2, ![M, 1]⟩ : Shape).BroadcastsInDim ⟨2, ![M, C]⟩ ![0, 1]) (p : Fin M) (q : Fin C) :
    broadcastInDim ⟨2, ![M, C]⟩ ![0, 1] hb v (ix2 p q) = v (ix2 p (0 : Fin 1)) :=
  broadcastInDim_apply ![0, 1] hb v (ix2 p q) (ix2 p (0 : Fin 1)) (fun ax => by
    match ax with
    | ⟨0, _⟩ =>
      show p.val = if M = 1 then 0 else p.val
      split
      · have := p.isLt; omega
      · rfl
    | ⟨1, _⟩ => rfl)

/-- Subtracting the host's broadcast column of row means is `centred`. -/
theorem host_centred (a : FVec Ideal ⟨2, ![M, C]⟩ .f32) (nw : BitVec 32)
    (hr' : (⟨2, ![M, C]⟩ : Shape).ReducesTo [1] ⟨1, ![M]⟩) (hr : (⟨2, ![M, C]⟩ : Shape).Reduces [1] ⟨1, ![M]⟩)
    (h0 : 0 < (⟨0, ![]⟩ : Shape).numel)
    (hc : (⟨1, ![M]⟩ : Shape).BroadcastsInDim ⟨2, ![M, 1]⟩ ![0])
    (hn : (⟨0, ![]⟩ : Shape).BroadcastsInDim ⟨2, ![M, 1]⟩ ![])
    (hb : (⟨2, ![M, 1]⟩ : Shape).BroadcastsInDim ⟨2, ![M, C]⟩ ![0, 1]) :
    subf a (broadcastInDim ⟨2, ![M, C]⟩ ![0, 1] hb
        (Host.divf (broadcastInDim ⟨2, ![M, 1]⟩ ![0] hc
            (Host.reduceAdd a (constant (F := Ideal) ⟨0, ![]⟩ .f32 0x00000000#32) hr' h0))
          (broadcastInDim ⟨2, ![M, 1]⟩ ![] hn (constant (F := Ideal) ⟨0, ![]⟩ .f32 nw))))
      = centred (Ideal.ofBits .f32 nw) a := by
  funext i
  obtain ⟨p, q, rfl⟩ : ∃ (p : Fin M) (q : Fin C), i = ix2 p q := ⟨i 0, i 1, eq_ix2 i⟩
  show a (ix2 p q) - broadcastInDim (s := ⟨2, ![M, 1]⟩) ⟨2, ![M, C]⟩ ![0, 1] hb _ (ix2 p q) = a (ix2 p q) - rowMean (Ideal.ofBits .f32 nw) a p
  rw [host_bcastCol_apply _ hb p q, host_meanCol_apply a nw hr' hr h0 hc hn p 0]

/-- The host's normalisation is `normalized`. -/
theorem host_normalized (a : FVec Ideal ⟨2, ![M, C]⟩ .f32) (nw ew : BitVec 32)
    (hr' : (⟨2, ![M, C]⟩ : Shape).ReducesTo [1] ⟨1, ![M]⟩) (hr : (⟨2, ![M, C]⟩ : Shape).Reduces [1] ⟨1, ![M]⟩)
    (h0 : 0 < (⟨0, ![]⟩ : Shape).numel)
    (hc : (⟨1, ![M]⟩ : Shape).BroadcastsInDim ⟨2, ![M, 1]⟩ ![0])
    (hn : (⟨0, ![]⟩ : Shape).BroadcastsInDim ⟨2, ![M, 1]⟩ ![])
    (hb : (⟨2, ![M, 1]⟩ : Shape).BroadcastsInDim ⟨2, ![M, C]⟩ ![0, 1])
    (d : FVec Ideal ⟨2, ![M, C]⟩ .f32) (hd : d = centred (Ideal.ofBits .f32 nw) a) :
    mulf d (broadcastInDim ⟨2, ![M, C]⟩ ![0, 1] hb (Host.rsqrt (addf
        (Host.divf (broadcastInDim ⟨2, ![M, 1]⟩ ![0] hc
            (Host.reduceAdd (mulf d d) (constant (F := Ideal) ⟨0, ![]⟩ .f32 0x00000000#32) hr' h0))
          (broadcastInDim ⟨2, ![M, 1]⟩ ![] hn (constant (F := Ideal) ⟨0, ![]⟩ .f32 nw)))
        (broadcastInDim ⟨2, ![M, 1]⟩ ![] hn (constant (F := Ideal) ⟨0, ![]⟩ .f32 ew)))))
      = normalized (Ideal.ofBits .f32 nw) (Ideal.ofBits .f32 ew) a := by
  subst hd
  funext i
  obtain ⟨p, q, rfl⟩ : ∃ (p : Fin M) (q : Fin C), i = ix2 p q := ⟨i 0, i 1, eq_ix2 i⟩
  show centred (Ideal.ofBits .f32 nw) a (ix2 p q) * broadcastInDim (s := ⟨2, ![M, 1]⟩) ⟨2, ![M, C]⟩ ![0, 1] hb _ (ix2 p q) = _
  rw [host_bcastCol_apply _ hb p q]
  show _ * Ideal.rsqrt (Host.divf (broadcastInDim ⟨2, ![M, 1]⟩ ![0] hc
            (Host.reduceAdd (mulf (centred (Ideal.ofBits .f32 nw) a) (centred (Ideal.ofBits .f32 nw) a))
              (constant (F := Ideal) ⟨0, ![]⟩ .f32 0x00000000#32) hr' h0))
          (broadcastInDim ⟨2, ![M, 1]⟩ ![] hn (constant (F := Ideal) ⟨0, ![]⟩ .f32 nw)) (ix2 p (0 : Fin 1))
        + broadcastInDim ⟨2, ![M, 1]⟩ ![] hn (constant (F := Ideal) ⟨0, ![]⟩ .f32 ew) (ix2 p (0 : Fin 1))) = _
  rw [host_meanCol_apply _ nw hr' hr h0 hc hn p 0,
    broadcastInDim_apply ![] hn _ (ix2 p (0 : Fin 1)) ix0 (fun ax => ax.elim0)]
  rfl

/-- A vector broadcast to a row and over all rows by the host, multiplied in, is `mulRow` of the vector cast to a row. -/
theorem mulf_bias_eq_mulRow (a : FVec Ideal ⟨2, ![M, C]⟩ .f32) (g : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![M, C]⟩ ![0, 1])
    (hc : (⟨1, ![C]⟩ : Shape).ShapeCasts ⟨2, ![1, C]⟩) :
    mulf a (broadcastInDim ⟨2, ![M, C]⟩ ![0, 1] h2 (broadcastInDim ⟨2, ![1, C]⟩ ![1] h1 g))
      = mulRow a (shapeCast ⟨2, ![1, C]⟩ g hc) := by
  funext i
  obtain ⟨p, q, rfl⟩ : ∃ (p : Fin M) (q : Fin C), i = ix2 p q := ⟨i 0, i 1, eq_ix2 i⟩
  show a (ix2 p q) * _ = a (ix2 p q) * shapeCast ⟨2, ![1, C]⟩ g hc (ix2 (0 : Fin 1) q)
  rw [bias_bcast_apply g h1 h2 hc p q]

/-! ## Row by row -/

theorem rowMean_rows {n : EReal} {r : Fin B → Fin M} {a' : (⟨2, ![B, C]⟩ : Shape).Idx → EReal}
    {a : (⟨2, ![M, C]⟩ : Shape).Idx → EReal} (h : RowsOf r a' a) (p : Fin B) : rowMean n a' p = rowMean n a (r p) :=
  congrArg (Ideal.div · n) (Finset.sum_congr rfl fun k _ => h p k)

theorem RowsOf.centred {n : EReal} {r : Fin B → Fin M} {a' : (⟨2, ![B, C]⟩ : Shape).Idx → EReal}
    {a : (⟨2, ![M, C]⟩ : Shape).Idx → EReal} (h : RowsOf r a' a) : RowsOf r (centred n a') (centred n a) := by
  intro p q
  show a' (ix2 p q) - rowMean n a' p = a (ix2 (r p) q) - rowMean n a (r p)
  rw [h p q, rowMean_rows h p]

theorem RowsOf.mul {r : Fin B → Fin M} {a' b' : (⟨2, ![B, C]⟩ : Shape).Idx → EReal}
    {a b : (⟨2, ![M, C]⟩ : Shape).Idx → EReal} (ha : RowsOf r a' a) (hb : RowsOf r b' b) :
    RowsOf r (fun j => a' j * b' j) (fun j => a j * b j) := by
  intro p q
  show a' (ix2 p q) * b' (ix2 p q) = a (ix2 (r p) q) * b (ix2 (r p) q)
  rw [ha p q, hb p q]

theorem RowsOf.add {r : Fin B → Fin M} {a' b' : (⟨2, ![B, C]⟩ : Shape).Idx → EReal}
    {a b : (⟨2, ![M, C]⟩ : Shape).Idx → EReal} (ha : RowsOf r a' a) (hb : RowsOf r b' b) :
    RowsOf r (fun j => a' j + b' j) (fun j => a j + b j) := by
  intro p q
  show a' (ix2 p q) + b' (ix2 p q) = a (ix2 (r p) q) + b (ix2 (r p) q)
  rw [ha p q, hb p q]

theorem RowsOf.normalized {n ε : EReal} {r : Fin B → Fin M} {a' : (⟨2, ![B, C]⟩ : Shape).Idx → EReal}
    {a : (⟨2, ![M, C]⟩ : Shape).Idx → EReal} (h : RowsOf r a' a) : RowsOf r (normalized n ε a') (normalized n ε a) := by
  intro p q
  show Cert.Layers.centred n a' (ix2 p q) * Ideal.rsqrt (rowMean n (fun j => Cert.Layers.centred n a' j * Cert.Layers.centred n a' j) p + ε)
    = Cert.Layers.centred n a (ix2 (r p) q) * Ideal.rsqrt (rowMean n (fun j => Cert.Layers.centred n a j * Cert.Layers.centred n a j) (r p) + ε)
  rw [h.centred p q, rowMean_rows (h.centred.mul h.centred) p]

theorem RowsOf.mulRow {r : Fin B → Fin M} {a' : (⟨2, ![B, C]⟩ : Shape).Idx → EReal}
    {a : (⟨2, ![M, C]⟩ : Shape).Idx → EReal} (h : RowsOf r a' a) (g : (⟨2, ![1, C]⟩ : Shape).Idx → EReal) :
    RowsOf r (mulRow a' g) (mulRow a g) := by
  intro p q
  show a' (ix2 p q) * g (ix2 (0 : Fin 1) q) = a (ix2 (r p) q) * g (ix2 (0 : Fin 1) q)
  rw [h p q]

end Cert.Layers

end
-- ==== Proof.LibDiagonal.lean ====
/-
  The identity matrix as array programs build it, read at an entry.

  Both a kernel and a host program make the `n × n` identity by comparing each entry's row number with its column number
  (two iotas, one along each axis, the row one with a zero offset added) and converting the resulting bit to a float: the
  kernel widens the bit to a 32-bit integer and converts that as a signed number, the host converts the bit as an unsigned
  one.  Row and column numbers below `2^32` are distinct as 32-bit words exactly when they are distinct numbers, so the bit
  is `1` on the diagonal and `0` off it, and both conversions give `1` and `0`: entry `(p, q)` is `if p = q then 1 else 0`.
-/
import Idealize.ShloMosaic.PureOps.Ideal
import Idealize.ShloMosaic.Lib.ValueIdx
import Idealize.ShloMosaic.Lib.Pipeline.Value
import Idealize.ShloMosaic.Lib.IdealHost

noncomputable section

namespace Cert.Lib

open Idealize.ShloMosaic Idealize.ShloMosaic.ValueIdx

/-- Numbers below `2^32` are equal as 32-bit words exactly when they are equal. -/
theorem ofNat32_eq_iff {p q : Nat} (hp : p < 2 ^ 32) (hq : q < 2 ^ 32) :
    BitVec.ofNat 32 p = BitVec.ofNat 32 q ↔ p = q := by
  constructor
  · intro h
    have h' := congrArg BitVec.toNat h
    rw [BitVec.toNat_ofNat, BitVec.toNat_ofNat, Nat.mod_eq_of_lt hp, Nat.mod_eq_of_lt hq] at h'
    exact h'
  · rintro rfl; rfl

/-- The comparison bit of "row number (plus a zero offset) equals column number". -/
theorem diag_bit {n : Nat} (hn : n ≤ 2 ^ 32) (p q : Fin n) :
    IntOp.cmpi .eq (IntOp.addi (BitVec.ofNat 32 p.val) 0#32) (BitVec.ofNat 32 q.val) = if p = q then 1#1 else 0#1 := by
  have hp : p.val < 2 ^ 32 := lt_of_lt_of_le p.isLt hn
  have hq : q.val < 2 ^ 32 := lt_of_lt_of_le q.isLt hn
  unfold IntOp.cmpi IntOp.addi
  by_cases h : p = q
  · subst h; simp
  · have hne : ¬ (BitVec.ofNat 32 p.val = BitVec.ofNat 32 q.val) := fun e => h (Fin.ext ((ofNat32_eq_iff hp hq).mp e))
    have hb : (BitVec.ofNat 32 p.val == BitVec.ofNat 32 q.val) = false := beq_eq_false_iff_ne.mpr hne
    simp [h, hb]

/-- The host's spelling: the comparison bit converted as an unsigned number. -/
theorem host_diag_apply {n : Nat} (hn : n ≤ 2 ^ 32) (h0 : (⟨0, ![]⟩ : Shape).BroadcastsInDim ⟨2, ![n, n]⟩ ![]) (p q : Fin n) :
    uitofp (F := Ideal) .f32 (cmpi .eq (addi (iotaInDim ⟨2, ![n, n]⟩ 32 0)
        (broadcastInDim ⟨2, ![n, n]⟩ ![] h0 (constantI ⟨0, ![]⟩ 32 0#32))) (iotaInDim ⟨2, ![n, n]⟩ 32 1)) (ix2 p q)
      = if p = q then 1 else 0 := by
  show (((IntOp.cmpi .eq (IntOp.addi (BitVec.ofNat 32 p.val)
      (broadcastInDim ⟨2, ![n, n]⟩ ![] h0 (constantI ⟨0, ![]⟩ 32 0#32) (ix2 p q))) (BitVec.ofNat 32 q.val)).toNat : ℝ) : EReal) = _
  rw [broadcastInDim_apply ![] h0 _ (ix2 p q) ix0 (fun a => a.elim0)]
  show (((IntOp.cmpi .eq (IntOp.addi (BitVec.ofNat 32 p.val) 0#32) (BitVec.ofNat 32 q.val)).toNat : ℝ) : EReal) = _
  rw [diag_bit hn p q]
  by_cases h : p = q <;> simp [h]

/-- The kernel's spelling: the comparison bit widened to 32 bits and converted as a signed number. -/
theorem kernel_diag_apply {n : Nat} (hn : n ≤ 2 ^ 32) (κ : Kind) (h0 : (⟨2, ![n, n]⟩ : Shape).Iotas κ 32 [0])
    (h1 : (⟨2, ![n, n]⟩ : Shape).Iotas κ 32 [1]) (hlt : 1 < 32) (p q : Fin n) :
    sitofp (F := Ideal) .f32 (extui 32 (cmpi .eq (addi (iota κ ⟨2, ![n, n]⟩ 32 [0] h0) (broadcast ⟨2, ![n, n]⟩ (0#32 : BitVec 32)))
        (iota κ ⟨2, ![n, n]⟩ 32 [1] h1)) hlt) (ix2 p q)
      = if p = q then 1 else 0 := by
  show ((((IntOp.cmpi .eq (IntOp.addi (iota κ ⟨2, ![n, n]⟩ 32 [0] h0 (ix2 p q)) 0#32)
      (iota κ ⟨2, ![n, n]⟩ 32 [1] h1 (ix2 p q))).setWidth 32).toInt : ℝ) : EReal) = _
  rw [iota_single_apply κ _ 32 0 h0, iota_single_apply κ _ 32 1 h1]
  show ((((IntOp.cmpi .eq (IntOp.addi (BitVec.ofNat 32 p.val) 0#32) (BitVec.ofNat 32 q.val)).setWidth 32).toInt : ℝ) : EReal) = _
  rw [diag_bit hn p q]
  by_cases h : p = q <;> simp [h]

end Cert.Lib

end
-- ==== Proof.LibDiagEmbed.lean ====
/-
  The diagonal embedding of feature rows: from an `[M, D]` array `a` the `[M, D, D]` array whose slice `p` is the
  diagonal matrix `diag (a p)`, entry `(p, s, t) ↦ a (p, s) · [s = t]`.

  A kernel builds it as the product of `a` (cast to `[M, D, 1]`, broadcast along the last axis) with the identity matrix
  (cast to `[1, D, D]`, broadcast along the first), and stores it flattened to `[M, D·D]`, the pair `(s, t)` at lane
  `s · D + t`.  This file reads that flattened product at a lane, and reads the identity matrix a kernel makes from two
  iotas with no offset added.
-/
import Idealize.ShloMosaic.PureOps.Ideal
import Idealize.ShloMosaic.Lib.ValueIdx
import Idealize.ShloMosaic.Lib.ValueLayout
import Idealize.ShloMosaic.Lib.Pipeline.Value
import proofs.«171774_j81698867905243_2_alg».proof.Proof.LibDiagonal

noncomputable section

namespace Cert.Layers

open Idealize.ShloMosaic Idealize.ShloMosaic.ValueIdx

variable {M D DD : Nat}

/-- Slice `p` of the result is the diagonal matrix of row `p`. -/
def diagEmbed (a : (⟨2, ![M, D]⟩ : Shape).Idx → EReal) : (⟨3, ![M, D, D]⟩ : Shape).Idx → EReal :=
  fun i => a (ix2 (i 0) (i 1)) * (if (i 1).val = (i 2).val then 1 else 0)

/-- The comparison bit of "row number equals column number", for numbers below `2^32`. -/
theorem diag_bit_plain {n : Nat} (hn : n ≤ 2 ^ 32) (p q : Fin n) :
    IntOp.cmpi .eq (BitVec.ofNat 32 p.val) (BitVec.ofNat 32 q.val) = if p = q then 1#1 else 0#1 := by
  have h := Cert.Lib.diag_bit hn p q
  have e : IntOp.addi (BitVec.ofNat 32 p.val) 0#32 = BitVec.ofNat 32 p.val := by
    unfold IntOp.addi
    simp
  rwa [e] at h

/-- The identity matrix a kernel makes from a row iota and a column iota compared directly: the bit widened to 32 bits
    and converted as a signed number is `1` on the diagonal and `0` off it. -/
theorem kernel_eye_apply {n : Nat} (hn : n ≤ 2 ^ 32) (κ : Kind) (h0 : (⟨2, ![n, n]⟩ : Shape).Iotas κ 32 [0])
    (h1 : (⟨2, ![n, n]⟩ : Shape).Iotas κ 32 [1]) (hlt : 1 < 32) (p q : Fin n) :
    sitofp (F := Ideal) .f32 (extui 32 (cmpi .eq (iota κ ⟨2, ![n, n]⟩ 32 [0] h0) (iota κ ⟨2, ![n, n]⟩ 32 [1] h1)) hlt) (ix2 p q)
      = if p = q then 1 else 0 := by
  show ((((IntOp.cmpi .eq (iota κ ⟨2, ![n, n]⟩ 32 [0] h0 (ix2 p q))
      (iota κ ⟨2, ![n, n]⟩ 32 [1] h1 (ix2 p q))).setWidth 32).toInt : ℝ) : EReal) = _
  rw [iota_single_apply κ _ 32 0 h0, iota_single_apply κ _ 32 1 h1]
  show ((((IntOp.cmpi .eq (BitVec.ofNat 32 p.val) (BitVec.ofNat 32 q.val)).setWidth 32).toInt : ℝ) : EReal) = _
  rw [diag_bit_plain hn p q]
  by_cases h : p = q <;> simp [h]

/-- The kernel's flattened product of the broadcast features with the broadcast identity matrix `e`, read at row `p` and
    lane `s · D + t`, is entry `(p, s, t)` of the diagonal embedding. -/
theorem kernel_diagFlat_apply (a : FVec Ideal ⟨2, ![M, D]⟩ .f32) (e : FVec Ideal ⟨2, ![D, D]⟩ .f32)
    (he : ∀ s t : Fin D, e (ix2 s t) = if s.val = t.val then 1 else 0) (hDD : DD = D * D)
    (h1 : (⟨2, ![M, D]⟩ : Shape).ShapeCasts ⟨3, ![M, D, 1]⟩) (h2 : (⟨2, ![D, D]⟩ : Shape).ShapeCasts ⟨3, ![1, D, D]⟩)
    (h3 : (⟨3, ![M, D, 1]⟩ : Shape).Broadcasts ⟨3, ![M, D, D]⟩) (h4 : (⟨3, ![1, D, D]⟩ : Shape).Broadcasts ⟨3, ![M, D, D]⟩)
    (h5 : (⟨3, ![M, D, D]⟩ : Shape).ShapeCasts ⟨2, ![M, DD]⟩)
    (p : Fin M) (s t : Fin D) (j : Fin DD) (hj : j.val = s.val * D + t.val) :
    shapeCast ⟨2, ![M, DD]⟩ (mulf (broadcastTo ⟨3, ![M, D, D]⟩ (shapeCast ⟨3, ![M, D, 1]⟩ a h1) h3)
        (broadcastTo ⟨3, ![M, D, D]⟩ (shapeCast ⟨3, ![1, D, D]⟩ e h2) h4)) h5 (ix2 p j)
      = diagEmbed a (ix3 p s t) := by
  rw [shapeCast_apply _ h5 (ix2 p j) (ix3 p s t) (by
    rw [Shape.rowMajor_val_three, Shape.rowMajor_val_two]
    show (p.val * D + s.val) * D + t.val = p.val * DD + j.val
    rw [hj, hDD]
    ring)]
  show broadcastTo ⟨3, ![M, D, D]⟩ (shapeCast ⟨3, ![M, D, 1]⟩ a h1) h3 (ix3 p s t)
      * broadcastTo ⟨3, ![M, D, D]⟩ (shapeCast ⟨3, ![1, D, D]⟩ e h2) h4 (ix3 p s t)
    = a (ix2 p s) * (if s.val = t.val then 1 else 0)
  rw [broadcastTo_apply _ h3 (ix3 p s t) (ix3 p s (0 : Fin 1)) (fun ax => by
      match ax with
      | ⟨0, _⟩ =>
        show p.val = if M = 1 then 0 else p.val
        split
        · have := p.isLt; omega
        · rfl
      | ⟨1, _⟩ =>
        show s.val = if D = 1 then 0 else s.val
        split
        · have := s.isLt; omega
        · rfl
      | ⟨2, _⟩ => rfl),
    broadcastTo_apply _ h4 (ix3 p s t) (ix3 (0 : Fin 1) s t) (fun ax => by
      match ax with
      | ⟨0, _⟩ => rfl
      | ⟨1, _⟩ =>
        show s.val = if D = 1 then 0 else s.val
        split
        · have := s.isLt; omega
        · rfl
      | ⟨2, _⟩ =>
        show t.val = if D = 1 then 0 else t.val
        split
        · have := t.isLt; omega
        · rfl),
    shapeCast_ab_1ab_apply e h2 (0 : Fin 1) s t, he s t,
    shapeCast_apply a h1 (ix3 p s (0 : Fin 1)) (ix2 p s) (by
      rw [Shape.rowMajor_val_three, Shape.rowMajor_val_two]
      show p.val * D + s.val = (p.val * D + s.val) * 1 + 0
      omega)]

end Cert.Layers

end
-- ==== Proof.PairMlp.lean ====
/-
  The function both programs compute.

  For every pair `p` of edges the two 128-wide feature rows `xi p`, `xj p` go through a three-layer perceptron
    `pre₁ = xi p · W1[0:128] + xj p · W1[128:256] + b1`,  `h₁ = relu (LN₆₄ pre₁ · g1 + be1)`,
    `pre₂ = h₁ · W2 + b2`,                               `h₂ = relu (LN₃₂ pre₂ · g2 + be2)`,
    `params = h₂ · W3 + b3`  (16 numbers),
  where `LN` centres a row and scales it by `rsqrt (variance + ε)`; the result for the pair is the diagonal matrix
  `diag params`.  The first layer is written with the weight matrix's top and bottom halves because that is the shape
  in which the contraction over the 256 concatenated features splits (the concatenated form is shown equal to it where
  the reference is read).

  Everything is stated for any number `M` of pairs, so that one block of pairs and the whole array of pairs are instances
  of one function; and every layer computes a pair's row from that pair's rows alone (`pairMlp_rows`).
-/
import proofs.«171774_j81698867905243_2_alg».proof.Proof.LibDenseLayers
import proofs.«171774_j81698867905243_2_alg».proof.Proof.LibRowLocal
import proofs.«171774_j81698867905243_2_alg».proof.Proof.LibHeadSplit
import proofs.«171774_j81698867905243_2_alg».proof.Proof.LibLayerNorm
import proofs.«171774_j81698867905243_2_alg».proof.Proof.LibDiagEmbed

noncomputable section

namespace Cert.Layers

open Idealize.ShloMosaic Idealize.ShloMosaic.ValueIdx

variable {B M : Nat}

theorem split256 : (256 : Nat) = 128 + 128 := rfl

/-- The first layer before normalisation: the two half-products summed, plus the bias row. -/
def firstPre (xi xj : (⟨2, ![M, 128]⟩ : Shape).Idx → EReal) (w1 : (⟨2, ![256, 64]⟩ : Shape).Idx → EReal)
    (b1 : (⟨2, ![1, 64]⟩ : Shape).Idx → EReal) : (⟨2, ![M, 64]⟩ : Shape).Idx → EReal :=
  addRow (fun i => project xi (topRows split256 w1) i + project xj (bottomRows split256 w1) i) b1

/-- A normalised, gained, shifted and clamped layer. -/
def lnRelu {C : Nat} (n ε : EReal) (a : (⟨2, ![M, C]⟩ : Shape).Idx → EReal) (g be : (⟨2, ![1, C]⟩ : Shape).Idx → EReal) :
    (⟨2, ![M, C]⟩ : Shape).Idx → EReal :=
  addRowClamp (mulRow (normalized n ε a) g) be

/-- The perceptron's 16 output numbers for every pair. -/
def pairMlp (n1 n2 ε : EReal) (xi xj : (⟨2, ![M, 128]⟩ : Shape).Idx → EReal) (w1 : (⟨2, ![256, 64]⟩ : Shape).Idx → EReal)
    (b1 g1 be1 : (⟨2, ![1, 64]⟩ : Shape).Idx → EReal) (w2 : (⟨2, ![64, 32]⟩ : Shape).Idx → EReal)
    (b2 g2 be2 : (⟨2, ![1, 32]⟩ : Shape).Idx → EReal) (w3 : (⟨2, ![32, 16]⟩ : Shape).Idx → EReal)
    (b3 : (⟨2, ![1, 16]⟩ : Shape).Idx → EReal) : (⟨2, ![M, 16]⟩ : Shape).Idx → EReal :=
  addRow (project (lnRelu n2 ε (addRow (project (lnRelu n1 ε (firstPre xi xj w1 b1) g1 be1) w2) b2) g2 be2) w3) b3

/-- Row `p` of the perceptron's output depends on rows `p` of the two feature arrays only. -/
theorem pairMlp_rows {r : Fin B → Fin M} {xi' xj' : (⟨2, ![B, 128]⟩ : Shape).Idx → EReal}
    {xi xj : (⟨2, ![M, 128]⟩ : Shape).Idx → EReal} (hi : RowsOf r xi' xi) (hj : RowsOf r xj' xj)
    (n1 n2 ε : EReal) (w1 : (⟨2, ![256, 64]⟩ : Shape).Idx → EReal)
    (b1 g1 be1 : (⟨2, ![1, 64]⟩ : Shape).Idx → EReal) (w2 : (⟨2, ![64, 32]⟩ : Shape).Idx → EReal)
    (b2 g2 be2 : (⟨2, ![1, 32]⟩ : Shape).Idx → EReal) (w3 : (⟨2, ![32, 16]⟩ : Shape).Idx → EReal)
    (b3 : (⟨2, ![1, 16]⟩ : Shape).Idx → EReal) :
    RowsOf r (pairMlp n1 n2 ε xi' xj' w1 b1 g1 be1 w2 b2 g2 be2 w3 b3) (pairMlp n1 n2 ε xi xj w1 b1 g1 be1 w2 b2 g2 be2 w3 b3) := by
  have h1 : RowsOf r (firstPre xi' xj' w1 b1) (firstPre xi xj w1 b1) :=
    ((hi.project (topRows split256 w1)).add (hj.project (bottomRows split256 w1))).addRow b1
  have h2 : RowsOf r (lnRelu n1 ε (firstPre xi' xj' w1 b1) g1 be1) (lnRelu n1 ε (firstPre xi xj w1 b1) g1 be1) :=
    ((h1.normalized (n := n1) (ε := ε)).mulRow g1).addRowClamp be1
  have h3 := (h2.project w2).addRow b2
  have h4 := (((h3.normalized (n := n2) (ε := ε)).mulRow g2).addRowClamp be2)
  exact (h4.project w3).addRow b3

end Cert.Layers

end
-- ==== Proof.KernelWindows.lean ====
/-
  What each window of the call holds at a grid point, and what the arrays written by the host lines before the call hold.

  The grid has 50 points.  At point `t` the two feature windows hold rows `6000 t … 6000 t + 5999` of the two gathered
  arrays, and every parameter window holds its whole array (its block index is `0` at every point).  The two gathered
  arrays are rows of `edge_features` taken at the wrapped pair indices, and the two weight windows' arrays are the top and
  the bottom 128 rows of `W1`.
-/
import proofs.«171774_j81698867905243_2_alg».proof.Proof.Gen.KernelIdeal.Frame
import proofs.«171774_j81698867905243_2_alg».proof.Proof.LibHeadSplit
import proofs.«171774_j81698867905243_2_alg».proof.Proof.LibRowLocal
import proofs.«171774_j81698867905243_2_alg».proof.Proof.PairMlp
import Idealize.ShloMosaic.Lib.Pipeline.Value
import Idealize.ShloMosaic.Lib.StableHlo.Run
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Layers

variable (m : (ℓ : Loc nD τ sig) → Buf (Elt Ideal) ℓ)

/-! ## The block indices, decided over the grid -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 1) = 0 :=
  (by decide +kernel : ∀ t : Fin grid0.N, _)
theorem index5 : ∀ t : Fin cfg0.N, win0_5.index t (0 : Fin 1) = 0 :=
  (by decide +kernel : ∀ t : Fin grid0.N, _)
theorem index6 : ∀ t : Fin cfg0.N, win0_6.index t (0 : Fin 1) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 1) = 0 :=
  (by decide +kernel : ∀ t : Fin grid0.N, _)
theorem index9 : ∀ t : Fin cfg0.N, win0_9.index t (0 : Fin 1) = 0 :=
  (by decide +kernel : ∀ t : Fin grid0.N, _)
theorem index10 : ∀ t : Fin cfg0.N, win0_10.index t (0 : Fin 1) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 1) = 0 :=
  (by decide +kernel : ∀ t : Fin grid0.N, _)

/-! ## The feature windows: blocks of 6000 rows -/

/-- Row `p` of point `t`'s block of the first gathered array is row `6000 t + p` of the array. -/
theorem block0_apply (c : Dev nD) (t : Fin cfg0.N) (p : Fin 6000) (k : Fin 128) (r : Fin 300000)
    (hr : r.val = 6000 * t.val + p.val) :
    (iblk m c 0 t : Vec Ideal S6000x128 .f32) (ix2 p k) = (V m c main_v6 : S300000x128.Idx → EReal) (ix2 r k) := by
  unfold iblk
  rw [View.read_apply]
  show V m c main_v6 _ = V m c main_v6 (ix2 r k)
  refine congrArg (V m c main_v6) (funext fun a => Fin.ext ?_)
  match a with
  | ⟨0, _⟩ => show win0_0.index t (0 : Fin 2) * 6000 + 1 * p.val = r.val; rw [(index0 t).1, hr]; omega
  | ⟨1, _⟩ => show win0_0.index t (1 : Fin 2) * 128 + 1 * k.val = k.val; rw [(index0 t).2]; omega

/-- The same for the second gathered array. -/
theorem block1_apply (c : Dev nD) (t : Fin cfg0.N) (p : Fin 6000) (k : Fin 128) (r : Fin 300000)
    (hr : r.val = 6000 * t.val + p.val) :
    (iblk m c 1 t : Vec Ideal S6000x128 .f32) (ix2 p k) = (V m c main_v13 : S300000x128.Idx → EReal) (ix2 r k) := by
  unfold iblk
  rw [View.read_apply]
  show V m c main_v13 _ = V m c main_v13 (ix2 r k)
  refine congrArg (V m c main_v13) (funext fun a => Fin.ext ?_)
  match a with
  | ⟨0, _⟩ => show win0_1.index t (0 : Fin 2) * 6000 + 1 * p.val = r.val; rw [(index1 t).1, hr]; omega
  | ⟨1, _⟩ => show win0_1.index t (1 : Fin 2) * 128 + 1 * k.val = k.val; rw [(index1 t).2]; omega

/-! ## The parameter windows: whole arrays -/

theorem block2_eq (c : Dev nD) (t : Fin cfg0.N) :
    (iblk m c 2 t : Vec Ideal S128x64 .f32) = (V m c main_v14 : S128x64.Idx → EReal) := by
  funext y
  unfold iblk
  rw [View.read_apply]
  show V m c main_v14 _ = V m c main_v14 y
  refine congrArg (V m c main_v14) (funext fun a => Fin.ext ?_)
  match a with
  | ⟨0, _⟩ => show win0_2.index t (0 : Fin 2) * 128 + 1 * (y 0).val = (y 0).val; rw [(index2 t).1]; omega
  | ⟨1, _⟩ => show win0_2.index t (1 : Fin 2) * 64 + 1 * (y 1).val = (y 1).val; rw [(index2 t).2]; omega

theorem block3_eq (c : Dev nD) (t : Fin cfg0.N) :
    (iblk m c 3 t : Vec Ideal S128x64 .f32) = (V m c main_v15 : S128x64.Idx → EReal) := by
  funext y
  unfold iblk
  rw [View.read_apply]
  show V m c main_v15 _ = V m c main_v15 y
  refine congrArg (V m c main_v15) (funext fun a => Fin.ext ?_)
  match a with
  | ⟨0, _⟩ => show win0_3.index t (0 : Fin 2) * 128 + 1 * (y 0).val = (y 0).val; rw [(index3 t).1]; omega
  | ⟨1, _⟩ => show win0_3.index t (1 : Fin 2) * 64 + 1 * (y 1).val = (y 1).val; rw [(index3 t).2]; omega

theorem block4_eq (c : Dev nD) (t : Fin cfg0.N) :
    (iblk m c 4 t : Vec Ideal S64 .f32) = (V m c main_arg4 : S64.Idx → EReal) := by
  funext y
  unfold iblk
  rw [View.read_apply]
  show V m c main_arg4 _ = V m c main_arg4 y
  refine congrArg (V m c main_arg4) (funext fun a => Fin.ext ?_)
  match a with
  | ⟨0, _⟩ => show win0_4.index t (0 : Fin 1) * 64 + 1 * (y 0).val = (y 0).val; rw [index4 t]; omega

theorem block5_eq (c : Dev nD) (t : Fin cfg0.N) :
    (iblk m c 5 t : Vec Ideal S64 .f32) = (V m c main_arg5 : S64.Idx → EReal) := by
  funext y
  unfold iblk
  rw [View.read_apply]
  show V m c main_arg5 _ = V m c main_arg5 y
  refine congrArg (V m c main_arg5) (funext fun a => Fin.ext ?_)
  match a with
  | ⟨0, _⟩ => show win0_5.index t (0 : Fin 1) * 64 + 1 * (y 0).val = (y 0).val; rw [index5 t]; omega

theorem block6_eq (c : Dev nD) (t : Fin cfg0.N) :
    (iblk m c 6 t : Vec Ideal S64 .f32) = (V m c main_arg6 : S64.Idx → EReal) := by
  funext y
  unfold iblk
  rw [View.read_apply]
  show V m c main_arg6 _ = V m c main_arg6 y
  refine congrArg (V m c main_arg6) (funext fun a => Fin.ext ?_)
  match a with
  | ⟨0, _⟩ => show win0_6.index t (0 : Fin 1) * 64 + 1 * (y 0).val = (y 0).val; rw [index6 t]; omega

theorem block7_eq (c : Dev nD) (t : Fin cfg0.N) :
    (iblk m c 7 t : Vec Ideal S64x32 .f32) = (V m c main_arg7 : S64x32.Idx → EReal) := by
  funext y
  unfold iblk
  rw [View.read_apply]
  show V m c main_arg7 _ = V m c main_arg7 y
  refine congrArg (V m c main_arg7) (funext fun a => Fin.ext ?_)
  match a with
  | ⟨0, _⟩ => show win0_7.index t (0 : Fin 2) * 64 + 1 * (y 0).val = (y 0).val; rw [(index7 t).1]; omega
  | ⟨1, _⟩ => show win0_7.index t (1 : Fin 2) * 32 + 1 * (y 1).val = (y 1).val; rw [(index7 t).2]; omega

theorem block8_eq (c : Dev nD) (t : Fin cfg0.N) :
    (iblk m c 8 t : Vec Ideal S32 .f32) = (V m c main_arg8 : S32.Idx → EReal) := by
  funext y
  unfold iblk
  rw [View.read_apply]
  show V m c main_arg8 _ = V m c main_arg8 y
  refine congrArg (V m c main_arg8) (funext fun a => Fin.ext ?_)
  match a with
  | ⟨0, _⟩ => show win0_8.index t (0 : Fin 1) * 32 + 1 * (y 0).val = (y 0).val; rw [index8 t]; omega

theorem block9_eq (c : Dev nD) (t : Fin cfg0.N) :
    (iblk m c 9 t : Vec Ideal S32 .f32) = (V m c main_arg9 : S32.Idx → EReal) := by
  funext y
  unfold iblk
  rw [View.read_apply]
  show V m c main_arg9 _ = V m c main_arg9 y
  refine congrArg (V m c main_arg9) (funext fun a => Fin.ext ?_)
  match a with
  | ⟨0, _⟩ => show win0_9.index t (0 : Fin 1) * 32 + 1 * (y 0).val = (y 0).val; rw [index9 t]; omega

theorem block10_eq (c : Dev nD) (t : Fin cfg0.N) :
    (iblk m c 10 t : Vec Ideal S32 .f32) = (V m c main_arg10 : S32.Idx → EReal) := by
  funext y
  unfold iblk
  rw [View.read_apply]
  show V m c main_arg10 _ = V m c main_arg10 y
  refine congrArg (V m c main_arg10) (funext fun a => Fin.ext ?_)
  match a with
  | ⟨0, _⟩ => show win0_10.index t (0 : Fin 1) * 32 + 1 * (y 0).val = (y 0).val; rw [index10 t]; omega

theorem block11_eq (c : Dev nD) (t : Fin cfg0.N) :
    (iblk m c 11 t : Vec Ideal S32x16 .f32) = (V m c main_arg11 : S32x16.Idx → EReal) := by
  funext y
  unfold iblk
  rw [View.read_apply]
  show V m c main_arg11 _ = V m c main_arg11 y
  refine congrArg (V m c main_arg11) (funext fun a => Fin.ext ?_)
  match a with
  | ⟨0, _⟩ => show win0_11.index t (0 : Fin 2) * 32 + 1 * (y 0).val = (y 0).val; rw [(index11 t).1]; omega
  | ⟨1, _⟩ => show win0_11.index t (1 : Fin 2) * 16 + 1 * (y 1).val = (y 1).val; rw [(index11 t).2]; omega

theorem block12_eq (c : Dev nD) (t : Fin cfg0.N) :
    (iblk m c 12 t : Vec Ideal S16 .f32) = (V m c main_arg12 : S16.Idx → EReal) := by
  funext y
  unfold iblk
  rw [View.read_apply]
  show V m c main_arg12 _ = V m c main_arg12 y
  refine congrArg (V m c main_arg12) (funext fun a => Fin.ext ?_)
  match a with
  | ⟨0, _⟩ => show win0_12.index t (0 : Fin 1) * 16 + 1 * (y 0).val = (y 0).val; rw [index12 t]; omega

/-! ## The arrays the host lines before the call write -/

/-- Rows of the feature table taken at the pair indices, a negative index wrapped by the table's length first. -/
def gathered (ef : (⟨S20000x128, .f32⟩ : BufTy).Contents (Elt Ideal)) (idx : (⟨S300000, .i32⟩ : BufTy).Contents (Elt Ideal)) :
    (⟨S300000x128, .f32⟩ : BufTy).Contents (Elt Ideal) :=
  Host.gather gather_S20000x128_S300000x1_S300000x128_1_0_n_n_0_1_1128 ef
    (broadcastInDim S300000x1 ![0] bcast_S300000_S300000x1_0
      (select (cmpi .slt idx (broadcastInDim S300000 ![] bcast_S_S300000 (constantI S_ 32 0#32)))
        (addi idx (broadcastInDim S300000 ![] bcast_S_S300000 (constantI S_ 32 20000#32))) idx))

theorem V_xi (c : Dev nD) :
    V m c main_v6 = gathered (m ((c.tc : Thread nD τ).loc main_arg0)) (m ((c.tc : Thread nD τ).loc main_arg1)) := by
  show StableHlo.after hostOps0 (fun b => m (c, b)) (Proc.devRef .tc main_v6) = _
  after_results
  rfl

theorem V_xj (c : Dev nD) :
    V m c main_v13 = gathered (m ((c.tc : Thread nD τ).loc main_arg0)) (m ((c.tc : Thread nD τ).loc main_arg2)) := by
  show StableHlo.after hostOps0 (fun b => m (c, b)) (Proc.devRef .tc main_v13) = _
  after_results
  rfl

/-- The first weight window's array is the top 128 rows of `W1`. -/
theorem V_w1top (c : Dev nD) :
    (V m c main_v14 : S128x64.Idx → EReal) = topRows split256 (m ((c.tc : Thread nD τ).loc main_arg3)) := by
  have e : (V m c main_v14 : S128x64.Idx → EReal)
      = extractStridedSlice S128x64 ![0, 0] (m ((c.tc : Thread nD τ).loc main_arg3)) slices_S256x64_S128x64_0_0 := by
    show StableHlo.after hostOps0 (fun b => m (c, b)) (Proc.devRef .tc main_v14) = _
    after_results
  rw [e]
  funext i
  obtain ⟨k, q, rfl⟩ : ∃ (k : Fin 128) (q : Fin 64), i = ix2 k q := ⟨i 0, i 1, eq_ix2 i⟩
  exact slice2_axis0_apply 0 _ slices_S256x64_S128x64_0_0 k q ⟨k.val, by have := k.isLt; omega⟩ (Nat.zero_add _).symm

/-- The second weight window's array is the bottom 128 rows of `W1`. -/
theorem V_w1bot (c : Dev nD) :
    (V m c main_v15 : S128x64.Idx → EReal) = bottomRows split256 (m ((c.tc : Thread nD τ).loc main_arg3)) := by
  have e : (V m c main_v15 : S128x64.Idx → EReal)
      = extractStridedSlice S128x64 ![128, 0] (m ((c.tc : Thread nD τ).loc main_arg3)) slices_S256x64_S128x64_128_0 := by
    show StableHlo.after hostOps0 (fun b => m (c, b)) (Proc.devRef .tc main_v15) = _
    after_results
  rw [e]
  funext i
  obtain ⟨k, q, rfl⟩ : ∃ (k : Fin 128) (q : Fin 64), i = ix2 k q := ⟨i 0, i 1, eq_ix2 i⟩
  exact slice2_axis0_apply 128 _ slices_S256x64_S128x64_128_0 k q ⟨128 + k.val, by have := k.isLt; omega⟩ rfl

end Cert.KernelIdeal.Blocks

end
-- ==== Proof.LibKernelDense.lean ====
/-
  A kernel's dense layer read as a whole-array function over the extended reals.

  Inside a kernel a dense layer is a `tpu.matmul` of the activations with the weights into a zero accumulator, plus
  the bias row `[1, N]` broadcast over the `M` rows, optionally clamped by a `maximum` with a splat zero.  With
  ordinary matrix-product dimension numbers that is `Cert.Layers.addRow (project x w) b`, respectively
  `addRowClamp (project x w) b`: the same sums and products, `0 + s = s` being the only law used (inside the
  matmul's reading).
-/
import Idealize.ShloMosaic.PureOps.Ideal
import Idealize.ShloMosaic.PureOps.Ideal.Laws
import Idealize.ShloMosaic.Lib.ValueIdx
import Idealize.ShloMosaic.Lib.ValueLayout
import proofs.«171774_j81698867905243_2_alg».proof.Proof.LibPlainDot
import proofs.«171774_j81698867905243_2_alg».proof.Proof.LibDenseLayers

noncomputable section

namespace Cert.Lib

open Idealize.ShloMosaic Idealize.ShloMosaic.ValueIdx Cert.Layers

variable {M K N : Nat}

/-- A `tpu.matmul` into the zero accumulator plus the broadcast bias row is the projection plus the bias row. -/
theorem matmul_bias_eq_addRow {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    addf (matmul d prec x w (constant ⟨2, ![M, N]⟩ .f32 0x00000000#32)) (broadcastTo ⟨2, ![M, N]⟩ b hb)
      = addRow (project x w) b := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      + broadcastTo ⟨2, ![M, N]⟩ b hb (ix2 p q) = (∑ k : Fin K, x (ix2 p k) * w (ix2 k q)) + b (ix2 (0 : Fin 1) q)
  rw [matmul_plain_zero_apply prec x w p q, broadcastTo_1b_ab_apply b hb p q]

/-- The same followed by the clamp at a splat zero is the projection plus the bias row, clamped at zero. -/
theorem matmul_bias_clamp_eq_addRowClamp {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec x w (constant ⟨2, ![M, N]⟩ .f32 0x00000000#32)) (broadcastTo ⟨2, ![M, N]⟩ b hb))
        (broadcast ⟨2, ![M, N]⟩ (Scalar.ofBits (F := Ideal) .f32 0x00000000#32))
      = addRowClamp (project x w) b := by
  rw [matmul_bias_eq_addRow d hd prec x w b hb]
  funext i
  show max (addRow (project x w) b i) (Ideal.ofBits .f32 0x00000000#32) = max (addRow (project x w) b i) 0
  rw [Ideal.ofBits_zero_f32]

end Cert.Lib

end
-- ==== Proof.KernelBody.lean ====
/-
  The kernel body's arithmetic, read as whole-array functions of the blocks it loads.

  On a block of 6000 pairs the body computes, from the two blocks of gathered feature rows, the two halves of the first
  weight matrix and the remaining parameters, exactly the perceptron of `PairMlp` with `M = 6000` — each matrix product
  into a zero accumulator is a projection, each bias or gain vector cast to a row and broadcast over the rows is
  `addRow` / `mulRow`, each mean–variance–rsqrt passage is `normalized`, each `max (·) 0` the clamp — and stores
  the diagonal embedding of the 16 outputs with the pair `(s, t)` at lane `16 s + t`.  The changes of float format are
  the identity on the extended reals.
-/
import proofs.«171774_j81698867905243_2_alg».proof.Proof.Gen.KernelIdeal.Skeleton
import proofs.«171774_j81698867905243_2_alg».proof.Proof.LibPlainDot
import proofs.«171774_j81698867905243_2_alg».proof.Proof.LibDenseLayers
import proofs.«171774_j81698867905243_2_alg».proof.Proof.LibKernelDense
import proofs.«171774_j81698867905243_2_alg».proof.Proof.LibLayerNorm
import proofs.«171774_j81698867905243_2_alg».proof.Proof.LibDiagEmbed
import proofs.«171774_j81698867905243_2_alg».proof.Proof.PairMlp
import Idealize.ShloMosaic.Lib.Pipeline.Value

set_option maxRecDepth 16384

noncomputable section

namespace Cert.Layers

open Idealize.ShloMosaic Idealize.ShloMosaic.ValueIdx

/-- A matrix product with ordinary dimension numbers into the zero accumulator is the projection. -/
theorem matmul_eq_project {M K N : Nat} {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) :
    matmul d prec x w (constant ⟨2, ![M, N]⟩ .f32 0x00000000#32) = project x w := by
  subst hd
  funext i
  obtain ⟨p, q, rfl⟩ : ∃ (p : Fin M) (q : Fin N), i = ix2 p q := ⟨i 0, i 1, eq_ix2 i⟩
  exact Cert.Lib.matmul_plain_zero_apply prec x w p q

end Cert.Layers

namespace Cert.KernelIdeal.Body

open Idealize.ShloMosaic Idealize.ShloMosaic.ValueIdx Cert.KernelIdeal Cert.KernelIdeal.Gen Cert.Layers

/-- The first layer up to the gain: the two half-products, the bias, the normalisation over 64 lanes, the gain. -/
theorem firstLayer_eq (x0 x1 : Vec Ideal S6000x128 .f32) (w1i w1j : Vec Ideal S128x64 .f32) (b1 g1 : Vec Ideal S64 .f32) :
    k0_pay2 (F := Ideal) x0 x1 w1i w1j b1 g1
      = mulRow (normalized (Ideal.ofBits .f32 0x42800000#32) (Ideal.ofBits .f32 0x3727C5AC#32)
          (addRow (fun i => project x0 w1i i + project x1 w1j i) (shapeCast S1x64 b1 shapeCasts_S64_S1x64)))
          (shapeCast S1x64 g1 shapeCasts_S64_S1x64) := by
  have e18 : addf (addf
        (matmul dot_S6000x128_S128x64_S6000x64_1_0_0_1_n_n none
          (truncf .bf16 (shapeCast S6000x128 x0 shapeCasts_S6000x128_S6000x128) bitsLt_bf16_f32)
          (truncf .bf16 (shapeCast S128x64 w1i shapeCasts_S128x64_S128x64) bitsLt_bf16_f32)
          (constant (F := Ideal) S6000x64 .f32 0x00000000#32))
        (matmul dot_S6000x128_S128x64_S6000x64_1_0_0_1_n_n none
          (truncf .bf16 (shapeCast S6000x128 x1 shapeCasts_S6000x128_S6000x128) bitsLt_bf16_f32)
          (truncf .bf16 (shapeCast S128x64 w1j shapeCasts_S128x64_S128x64) bitsLt_bf16_f32)
          (constant (F := Ideal) S6000x64 .f32 0x00000000#32)))
        (broadcastTo S6000x64 (shapeCast S1x64 b1 shapeCasts_S64_S1x64) broadcasts_S1x64_S6000x64)
      = addRow (fun i => project x0 w1i i + project x1 w1j i) (shapeCast S1x64 b1 shapeCasts_S64_S1x64) := by
    rw [matmul_eq_project dot_S6000x128_S128x64_S6000x64_1_0_0_1_n_n rfl,
      matmul_eq_project dot_S6000x128_S128x64_S6000x64_1_0_0_1_n_n rfl, addf_bcastRow_eq_addRow,
      shapeCast_self, shapeCast_self, shapeCast_self, shapeCast_self]
    rfl
  unfold k0_pay2
  dsimp only
  rw [e18, kernel_centred, kernel_normalized _ _ _ _ _ _ _ rfl, mulf_bcastRow_eq_mulRow]

/-- The rest of the first layer (shift, clamp) and the second layer. -/
theorem secondLayer_eq (a : FVec Ideal S6000x64 .f32) (be1 : Vec Ideal S64 .f32) (w2 : Vec Ideal S64x32 .f32)
    (b2 g2 be2 : Vec Ideal S32 .f32) :
    k0_pay3 (F := Ideal) a be1 w2 b2 g2 be2
      = lnRelu (Ideal.ofBits .f32 0x42000000#32) (Ideal.ofBits .f32 0x3727C5AC#32)
          (addRow (project (addRowClamp a (shapeCast S1x64 be1 shapeCasts_S64_S1x64)) w2) (shapeCast S1x32 b2 shapeCasts_S32_S1x32))
          (shapeCast S1x32 g2 shapeCasts_S32_S1x32) (shapeCast S1x32 be2 shapeCasts_S32_S1x32) := by
  have e54 : addf (matmul dot_S6000x64_S64x32_S6000x32_1_0_0_1_n_n none
          (truncf .bf16 (maximumf (addf a (broadcastTo S6000x64 (shapeCast S1x64 be1 shapeCasts_S64_S1x64) broadcasts_S1x64_S6000x64))
            (broadcast S6000x64 (Scalar.ofBits (F := Ideal) .f32 0x00000000#32))) bitsLt_bf16_f32)
          (truncf .bf16 w2 bitsLt_bf16_f32) (constant (F := Ideal) S6000x32 .f32 0x00000000#32))
        (broadcastTo S6000x32 (shapeCast S1x32 b2 shapeCasts_S32_S1x32) broadcasts_S1x32_S6000x32)
      = addRow (project (addRowClamp a (shapeCast S1x64 be1 shapeCasts_S64_S1x64)) w2) (shapeCast S1x32 b2 shapeCasts_S32_S1x32) := by
    rw [Cert.Lib.matmul_bias_eq_addRow dot_S6000x64_S64x32_S6000x32_1_0_0_1_n_n rfl, clamp_bcastRow_eq_addRowClamp]
    rfl
  unfold k0_pay3
  dsimp only
  rw [e54, kernel_centred, kernel_normalized _ _ _ _ _ _ _ rfl, mulf_bcastRow_eq_mulRow, clamp_bcastRow_eq_addRowClamp]
  rfl

/-- The last layer and the stored block: at row `p` and lane `16 s + t` the entry `(p, s, t)` of the diagonal embedding
    of `h₂ · W3 + b3`. -/
theorem lastLayer_apply (h2 : FVec Ideal S6000x32 .bf16) (w3 : FVec Ideal S32x16 .bf16) (b3 : Vec Ideal S16 .f32)
    (p : Fin 6000) (s t : Fin 16) (j : Fin 256) (hj : j.val = s.val * 16 + t.val) :
    k0_pay1 (F := Ideal) h2 w3 b3 (ix2 p j)
      = diagEmbed (addRow (project h2 w3) (shapeCast S1x16 b3 shapeCasts_S16_S1x16)) (ix3 p s t) := by
  unfold k0_pay1
  dsimp only
  rw [Cert.Lib.matmul_bias_eq_addRow dot_S6000x32_S32x16_S6000x16_1_0_0_1_n_n rfl]
  exact kernel_diagFlat_apply _ _
    (fun s t => (kernel_eye_apply (by decide) .tc _ _ _ s t).trans (if_congr Fin.ext_iff rfl rfl)) rfl _ _ _ _ _ p s t j hj

end Cert.KernelIdeal.Body

end
-- ==== Proof.KernelValue.lean ====
/-
  From blocks to the array, and the reshape after the call.

  At every grid point the call writes back the block of rows `6000 t … 6000 t + 5999` of one `[300000, 256]` array: row
  `r`, lane `16 s + t'` holds entry `(r, s, t')` of the diagonal embedding of the perceptron's outputs for all pairs —
  because the body computes the perceptron on the block's rows, and a pair's outputs depend on that pair's feature rows
  only.  The 50 blocks tile the array (row `r` is in block `r / 6000`), so the array ends holding that function; the one
  host line after the call reshapes `[300000, 256]` to `[300000, 16, 16]`, which sends lane `16 s + t'` back to `(s, t')`.
-/
import proofs.«171774_j81698867905243_2_alg».proof.Proof.KernelWindows
import proofs.«171774_j81698867905243_2_alg».proof.Proof.KernelBody

set_option maxRecDepth 16384

noncomputable section

namespace Cert.Layers

open Idealize.ShloMosaic Idealize.ShloMosaic.ValueIdx

/-- Rows of the diagonal embedding are the diagonal embeddings of rows. -/
theorem diagEmbed_rows {B M D : Nat} {r : Fin B → Fin M} {a' : (⟨2, ![B, D]⟩ : Shape).Idx → EReal}
    {a : (⟨2, ![M, D]⟩ : Shape).Idx → EReal} (h : RowsOf r a' a) (p : Fin B) (s t : Fin D)
    (i : (⟨3, ![M, D, D]⟩ : Shape).Idx) (h0 : (i 0).val = (r p).val) (h1 : (i 1).val = s.val) (h2 : (i 2).val = t.val) :
    diagEmbed a' (ix3 p s t) = diagEmbed a i := by
  have e : i = ix3 (r p) s t := funext fun ax => Fin.ext (by
    match ax with
    | ⟨0, _⟩ => exact h0
    | ⟨1, _⟩ => exact h1
    | ⟨2, _⟩ => exact h2)
  subst e
  show a' (ix2 p s) * _ = a (ix2 (r p) s) * _
  rw [h p s]
  rfl

end Cert.Layers

namespace Cert.KernelIdeal.Blocks

open Idealize.ShloMosaic Idealize.ShloMosaic.TcCoe Idealize.ShloMosaic.ValueIdx Idealize.SL.Sem
open Cert.KernelIdeal Cert.KernelIdeal.Gen Cert.KernelIdeal.Body Cert.Layers

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- What the body leaves in the output window's buffer, from the loaded blocks: at row `p`, lane `16 s + t`, entry
    `(p, s, t)` of the diagonal embedding of the perceptron on the block's 6000 pairs. -/
theorem block_value (x0 x1 : Vec Ideal S6000x128 .f32) (x2 x3 : Vec Ideal S128x64 .f32) (x4 x5 x6 : Vec Ideal S64 .f32)
    (x7 : Vec Ideal S64x32 .f32) (x8 x9 x10 : Vec Ideal S32 .f32) (x11 : Vec Ideal S32x16 .f32) (x12 : Vec Ideal S16 .f32)
    (w1 : (⟨2, ![256, 64]⟩ : Shape).Idx → EReal) (h2 : x2 = topRows split256 w1) (h3 : x3 = bottomRows split256 w1)
    (p : Fin 6000) (s t : Fin 16) (j : Fin 256) (hj : j.val = s.val * 16 + t.val) :
    out0_13 (F := Ideal) x0 x1 x2 x3 x4 x5 x6 x7 x8 x9 x10 x11 x12 (ix2 p j)
      = diagEmbed (pairMlp (Ideal.ofBits .f32 0x42800000#32) (Ideal.ofBits .f32 0x42000000#32) (Ideal.ofBits .f32 0x3727C5AC#32) x0 x1 w1
          (shapeCast S1x64 x4 shapeCasts_S64_S1x64) (shapeCast S1x64 x5 shapeCasts_S64_S1x64)
          (shapeCast S1x64 x6 shapeCasts_S64_S1x64) x7
          (shapeCast S1x32 x8 shapeCasts_S32_S1x32) (shapeCast S1x32 x9 shapeCasts_S32_S1x32)
          (shapeCast S1x32 x10 shapeCasts_S32_S1x32) x11 (shapeCast S1x16 x12 shapeCasts_S16_S1x16)) (ix3 p s t) := by
  subst h2 h3
  unfold out0_13
  rw [View.canon_unit_zero zero2]
  simp only [View.ld_unit_zero (S := S6000x128) zero2, View.ld_unit_zero (S := S128x64) zero2,
    View.ld_unit_zero (S := S64) zero1, View.ld_unit_zero (S := S64x32) zero2, View.ld_unit_zero (S := S32) zero1,
    View.ld_unit_zero (S := S32x16) zero2, View.ld_unit_zero (S := S16) zero1]
  rw [firstLayer_eq, secondLayer_eq]
  refine (lastLayer_apply _ _ _ p s t j hj).trans ?_
  rfl

/-- The perceptron's outputs for all 300000 pairs, from the argument arrays. -/
def outputs (c : Dev nD) : (⟨2, ![300000, 16]⟩ : Shape).Idx → EReal :=
  pairMlp (Ideal.ofBits .f32 0x42800000#32) (Ideal.ofBits .f32 0x42000000#32) (Ideal.ofBits .f32 0x3727C5AC#32)
    (gathered (m ((c.tc : Thread nD τ).loc main_arg0)) (m ((c.tc : Thread nD τ).loc main_arg1))) (gathered (m ((c.tc : Thread nD τ).loc main_arg0)) (m ((c.tc : Thread nD τ).loc main_arg2)))
    (m ((c.tc : Thread nD τ).loc main_arg3))
    (shapeCast S1x64 (m ((c.tc : Thread nD τ).loc main_arg4)) shapeCasts_S64_S1x64) (shapeCast S1x64 (m ((c.tc : Thread nD τ).loc main_arg5)) shapeCasts_S64_S1x64)
    (shapeCast S1x64 (m ((c.tc : Thread nD τ).loc main_arg6)) shapeCasts_S64_S1x64) (m ((c.tc : Thread nD τ).loc main_arg7))
    (shapeCast S1x32 (m ((c.tc : Thread nD τ).loc main_arg8)) shapeCasts_S32_S1x32) (shapeCast S1x32 (m ((c.tc : Thread nD τ).loc main_arg9)) shapeCasts_S32_S1x32)
    (shapeCast S1x32 (m ((c.tc : Thread nD τ).loc main_arg10)) shapeCasts_S32_S1x32) (m ((c.tc : Thread nD τ).loc main_arg11))
    (shapeCast S1x16 (m ((c.tc : Thread nD τ).loc main_arg12)) shapeCasts_S16_S1x16)

/-- The array the call writes: the diagonal embedding with the pair `(s, t)` at lane `16 s + t`. -/
def flat (c : Dev nD) : S300000x256.Idx → EReal := fun i =>
  diagEmbed (outputs m c) (ix3 (n0 := 300000) (n1 := 16) (n2 := 16) ⟨(i 0).val, (i 0).isLt⟩
    ⟨(i 1).val / 16, by have h : (i 1).val < 256 := (i 1).isLt; omega⟩ ⟨(i 1).val % 16, by omega⟩)

/-- Block `t`'s rows sit at `6000 t` onwards. -/
def rowAt (t : Fin cfg0.N) (p : Fin 6000) : Fin 300000 :=
  ⟨6000 * t.val + p.val, by
    have ht : t.val < 50 := lt_of_lt_of_eq t.isLt (show cfg0.N = 50 from N_0)
    have := p.isLt; omega⟩

/-- WHAT POINT `t` WRITES BACK is block `t` of `flat`. -/
theorem flushed_eq (c : Dev nD) (t : Fin cfg0.N) :
    (dats m 0 c).flushed 13 t = ((cfg0.win 13).blk t).view.read (Elt Ideal) (flat m c) := by
  show (cfg0.win 13).cut (grid0.coords t) ((dats m 0 c).after 13 t) = _
  rw [after0_13]
  funext j
  rw [View.read_apply]
  have hj0 : (j 0).val < 6000 := (j 0).isLt
  have hj1 : (j 1).val < 256 := (j 1).isLt
  have ej : j = ix2 (⟨(j 0).val, hj0⟩ : Fin 6000) (⟨(j 1).val, hj1⟩ : Fin 256) :=
    funext fun a => Fin.ext (by match a with | ⟨0, _⟩ => rfl | ⟨1, _⟩ => rfl)
  have hi : RowsOf (rowAt t) (iblk m c 0 t : Vec Ideal S6000x128 .f32) (gathered (m ((c.tc : Thread nD τ).loc main_arg0)) (m ((c.tc : Thread nD τ).loc main_arg1))) :=
    fun p k => (block0_apply m c t p k (rowAt t p) rfl).trans (congrFun (V_xi m c) _)
  have hx : RowsOf (rowAt t) (iblk m c 1 t : Vec Ideal S6000x128 .f32) (gathered (m ((c.tc : Thread nD τ).loc main_arg0)) (m ((c.tc : Thread nD τ).loc main_arg2))) :=
    fun p k => (block1_apply m c t p k (rowAt t p) rfl).trans (congrFun (V_xj m c) _)
  have hb := block_value (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (m ((c.tc : Thread nD τ).loc main_arg3)) ((block2_eq m c t).trans (V_w1top m c)) ((block3_eq m c t).trans (V_w1bot m c))
    ⟨(j 0).val, hj0⟩ ⟨(j 1).val / 16, by omega⟩ ⟨(j 1).val % 16, by omega⟩ ⟨(j 1).val, hj1⟩ (by show (j 1).val = (j 1).val / 16 * 16 + (j 1).val % 16; omega)
  refine (congrArg (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) ej).trans (hb.trans ?_)
  rw [block4_eq, block5_eq, block6_eq, block7_eq, block8_eq, block9_eq, block10_eq, block11_eq, block12_eq,
    V_main_arg4, V_main_arg5, V_main_arg6, V_main_arg7, V_main_arg8, V_main_arg9, V_main_arg10, V_main_arg11,
    V_main_arg12]
  refine diagEmbed_rows (pairMlp_rows hi hx _ _ _ _ _ _ _ _ _ _ _ _ _) _ _ _ _ ?_ ?_ ?_
  · show win0_13.index t (0 : Fin 2) * 6000 + 1 * (j 0).val = 6000 * t.val + (j 0).val
    rw [(index13 t).1]; omega
  · show (win0_13.index t (1 : Fin 2) * 256 + 1 * (j 1).val) / 16 = (j 1).val / 16
    rw [(index13 t).2]; omega
  · show (win0_13.index t (1 : Fin 2) * 256 + 1 * (j 1).val) % 16 = (j 1).val % 16
    rw [(index13 t).2]; omega

/-- An index of the array is in point `t`'s block iff each coordinate is in the block's range on its axis. -/
theorem mem_blk (t : Fin cfg0.N) (i : S300000x256.Idx) :
    i ∈ ((cfg0.win 13).blk t).view.set ↔ ∀ a : Fin 2, win0_13.index t a * S6000x256.size a ≤ (i a).val
      ∧ (i a).val < win0_13.index t a * S6000x256.size a + S6000x256.size a := by
  show i ∈ ((View.whole main_v16).slice (win0_13.rect t)).set ↔ _
  rw [View.set_slice_whole, Rect.mem_set_unit]
  exact Iff.rfl

/-- The 50 blocks tile the array: row `r` is in block `r / 6000`. -/
theorem covered (i : S300000x256.Idx) :
    ∃ t : Fin cfg0.N, (cfg0.win 13).flush t = true ∧ i ∈ ((cfg0.win 13).blk t).view.set := by
  have hi0 : (i 0).val < 300000 := (i 0).isLt
  have hi1 : (i 1).val < 256 := (i 1).isLt
  let t : Fin cfg0.N := ⟨(i 0).val / 6000, by rw [show cfg0.N = 50 from N_0]; omega⟩
  refine ⟨t, flush0_13 t, ?_⟩
  rw [mem_blk]
  intro a
  match a with
  | ⟨0, _⟩ =>
    show win0_13.index t (0 : Fin 2) * 6000 ≤ (i 0).val ∧ (i 0).val < win0_13.index t (0 : Fin 2) * 6000 + 6000
    rw [(index13 t).1]
    show (i 0).val / 6000 * 6000 ≤ (i 0).val ∧ (i 0).val < (i 0).val / 6000 * 6000 + 6000
    omega
  | ⟨1, _⟩ =>
    show win0_13.index t (1 : Fin 2) * 256 ≤ (i 1).val ∧ (i 1).val < win0_13.index t (1 : Fin 2) * 256 + 256
    rw [(index13 t).2]
    omega

/-- THE ARRAY after the call. -/
theorem final (c : Dev nD) : (dats m 0 c).arrAt 13 cfg0.N = flat m c :=
  (dats m 0 c).arrAt_eq_of_cover 13 (flat m c) (fun t _ => flushed_eq m c t) covered

/-- The reshape after the call gives the diagonal embedding itself. -/
theorem tail_eq (c : Dev nD) :
    Pipeline.afterTail₀ cfgs (dats m) 0 (V0 m) [hostOps1] c main_v17 = diagEmbed (outputs m c) := by
  unfold Pipeline.afterTail₀
  show StableHlo.after hostOps1 _ (Proc.devRef .tc main_v17) = _
  after_results
  have hw : Pipeline.withArrays (cfgs 0).spec c (V0 m c) (fun w => (dats m 0 c).arrAt w (cfgs 0).N)
      (Proc.devRef .tc main_v16) = flat m c :=
    (Pipeline.withArrays_arr spec0 launch0.win.arr_inj c _ _ 13).trans (final m c)
  funext i
  obtain ⟨p, s, t, rfl⟩ : ∃ (p : Fin 300000) (s t : Fin 16), i = ix3 p s t := ⟨i 0, i 1, i 2, eq_ix3 i⟩
  show shapeCast S300000x16x16 (Pipeline.withArrays (cfgs 0).spec c (V0 m c) (fun w => (dats m 0 c).arrAt w (cfgs 0).N)
      (Proc.devRef .tc main_v16)) shapeCasts_S300000x256_S300000x16x16 (ix3 p s t) = _
  rw [hw, shapeCast_apply (flat m c) shapeCasts_S300000x256_S300000x16x16 (ix3 p s t)
    (ix2 p (⟨s.val * 16 + t.val, by have := s.isLt; have := t.isLt; omega⟩ : Fin 256)) (by
      rw [Shape.rowMajor_val_two, Shape.rowMajor_val_three]
      show p.val * 256 + (s.val * 16 + t.val) = (p.val * 16 + s.val) * 16 + t.val
      omega)]
  show diagEmbed (outputs m c) (ix3 (n0 := 300000) (n1 := 16) (n2 := 16) ⟨p.val, p.isLt⟩
      ⟨(s.val * 16 + t.val) / 16, by have := s.isLt; have := t.isLt; omega⟩ ⟨(s.val * 16 + t.val) % 16, by omega⟩)
    = diagEmbed (outputs m c) (ix3 p s t)
  refine congrArg (diagEmbed (outputs m c)) (funext fun a => Fin.ext ?_)
  match a with
  | ⟨0, _⟩ => rfl
  | ⟨1, _⟩ => show (s.val * 16 + t.val) / 16 = s.val; have := t.isLt; omega
  | ⟨2, _⟩ => show (s.val * 16 + t.val) % 16 = t.val; have := t.isLt; omega

/-- The kernel program's run, read: its result is the diagonal embedding of the perceptron's outputs, and the argument
    arrays end unchanged. -/
theorem run : θ_run defs (onTc (τ := τ) (main (F := Ideal))) ⟨m, fun _ => 0, ρ⟩ fun r => ∀ c : Dev nD,
      r.2.mem ((c.tc : Thread nD τ).loc main_v17) = diagEmbed (outputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c)))⟩)
    (run_main m ρ)

end Cert.KernelIdeal.Blocks

end
-- ==== Proof.RefValue.lean ====
/-
  The reference program computes the perceptron of `PairMlp` on all 300000 pairs at once.

  Its first layer contracts the 256 concatenated features of a pair with the whole first weight matrix; splitting that sum
  at 128 gives the two half-products with the matrix's top and bottom rows.  Every later stage is, operation for
  operation, the function of the same name: a `dot_general` the projection, a twice-broadcast vector added or multiplied
  in `addRow` / `mulRow`, the reduce–divide–subtract–square–reduce–divide–add–rsqrt passage `normalized`, the `maximum`
  with a broadcast zero the clamp.  The result multiplies the outputs, broadcast along a new last axis, with the identity
  matrix made from two iotas, broadcast over the pairs: the diagonal embedding.
-/
import proofs.«171774_j81698867905243_2_alg».proof.Proof.Gen.ReferenceIdeal.Read
import proofs.«171774_j81698867905243_2_alg».proof.Proof.LibDenseLayers
import proofs.«171774_j81698867905243_2_alg».proof.Proof.LibHeadSplit
import proofs.«171774_j81698867905243_2_alg».proof.Proof.LibLayerNorm
import proofs.«171774_j81698867905243_2_alg».proof.Proof.LibDiagonal
import proofs.«171774_j81698867905243_2_alg».proof.Proof.LibDiagEmbed
import proofs.«171774_j81698867905243_2_alg».proof.Proof.PairMlp

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.Layers

theorem cast64 : (⟨1, ![64]⟩ : Shape).ShapeCasts ⟨2, ![1, 64]⟩ := by decide
theorem cast32 : (⟨1, ![32]⟩ : Shape).ShapeCasts ⟨2, ![1, 32]⟩ := by decide
theorem cast16 : (⟨1, ![16]⟩ : Shape).ShapeCasts ⟨2, ![1, 16]⟩ := by decide
theorem red64 : (⟨2, ![300000, 64]⟩ : Shape).Reduces [1] ⟨1, ![300000]⟩ := by decide
theorem red32 : (⟨2, ![300000, 32]⟩ : Shape).Reduces [1] ⟨1, ![300000]⟩ := by decide

/-- The first layer before normalisation: the contraction over the concatenated features, split at 128. -/
theorem firstPre_eq (x0 : (⟨S20000x128, .f32⟩ : BufTy).Contents (Elt Ideal))
    (x1 : (⟨S300000, .i32⟩ : BufTy).Contents (Elt Ideal))
    (x2 : (⟨S300000, .i32⟩ : BufTy).Contents (Elt Ideal))
    (x3 : (⟨S256x64, .f32⟩ : BufTy).Contents (Elt Ideal))
    (x4 : (⟨S64, .f32⟩ : BufTy).Contents (Elt Ideal)) :
    val_main_v18 (F := Ideal) x0 x1 x2 x3 x4
      = firstPre (val_main_v6 (F := Ideal) x0 x1) (val_main_v13 (F := Ideal) x0 x2) x3 (shapeCast ⟨2, ![1, 64]⟩ x4 cast64) := by
  unfold val_main_v18 val_main_v17 val_main_v16 val_main_v15 val_main_v14
  rw [dotGeneral_eq_project dot_S300000x256_S256x64_S300000x64_1_0_0_1_n_n rfl, project_concat split256,
    addf_bias_eq_addRow _ _ _ _ cast64]
  rfl

/-- The first hidden layer. -/
theorem hidden1_eq (x0 : (⟨S20000x128, .f32⟩ : BufTy).Contents (Elt Ideal))
    (x1 : (⟨S300000, .i32⟩ : BufTy).Contents (Elt Ideal))
    (x2 : (⟨S300000, .i32⟩ : BufTy).Contents (Elt Ideal))
    (x3 : (⟨S256x64, .f32⟩ : BufTy).Contents (Elt Ideal))
    (x4 : (⟨S64, .f32⟩ : BufTy).Contents (Elt Ideal))
    (x5 : (⟨S64, .f32⟩ : BufTy).Contents (Elt Ideal))
    (x6 : (⟨S64, .f32⟩ : BufTy).Contents (Elt Ideal)) :
    val_main_v43 (F := Ideal) x0 x1 x2 x3 x4 x5 x6
      = lnRelu (Ideal.ofBits .f32 0x42800000#32) (Ideal.ofBits .f32 0x3727C5AC#32) (val_main_v18 (F := Ideal) x0 x1 x2 x3 x4)
          (shapeCast ⟨2, ![1, 64]⟩ x5 cast64) (shapeCast ⟨2, ![1, 64]⟩ x6 cast64) := by
  unfold val_main_v43 val_main_call0_v0 val_main_call0_cst val_main_v42 val_main_v41 val_main_v40 val_main_v39 val_main_v38
    val_main_v37 val_main_v36 val_main_v35 val_main_v34 val_main_v33 val_main_v32 val_main_cst_6 val_main_v31 val_main_v30
    val_main_v29 val_main_v28 val_main_cst_5 val_main_v27 val_main_v26 val_main_cst_4 val_main_v25 val_main_v24 val_main_v23
    val_main_v22 val_main_v21 val_main_cst_3 val_main_v20 val_main_v19 val_main_cst
  rw [host_centred _ _ _ red64, host_normalized _ _ _ _ red64 _ _ _ _ _ rfl, mulf_bias_eq_mulRow _ _ _ _ cast64,
    maximumf_bias_eq_addRowClamp _ _ _ _ _ cast64]
  rfl

/-- The second layer before normalisation. -/
theorem secondPre_eq (x0 : (⟨S20000x128, .f32⟩ : BufTy).Contents (Elt Ideal))
    (x1 : (⟨S300000, .i32⟩ : BufTy).Contents (Elt Ideal))
    (x2 : (⟨S300000, .i32⟩ : BufTy).Contents (Elt Ideal))
    (x3 : (⟨S256x64, .f32⟩ : BufTy).Contents (Elt Ideal))
    (x4 : (⟨S64, .f32⟩ : BufTy).Contents (Elt Ideal))
    (x5 : (⟨S64, .f32⟩ : BufTy).Contents (Elt Ideal))
    (x6 : (⟨S64, .f32⟩ : BufTy).Contents (Elt Ideal))
    (x7 : (⟨S64x32, .f32⟩ : BufTy).Contents (Elt Ideal))
    (x8 : (⟨S32, .f32⟩ : BufTy).Contents (Elt Ideal)) :
    val_main_v47 (F := Ideal) x0 x1 x2 x3 x4 x5 x6 x7 x8
      = addRow (project (val_main_v43 (F := Ideal) x0 x1 x2 x3 x4 x5 x6) x7) (shapeCast ⟨2, ![1, 32]⟩ x8 cast32) := by
  unfold val_main_v47 val_main_v46 val_main_v45 val_main_v44
  rw [dotGeneral_eq_project dot_S300000x64_S64x32_S300000x32_1_0_0_1_n_n rfl, addf_bias_eq_addRow _ _ _ _ cast32]

/-- The second hidden layer. -/
theorem hidden2_eq (x0 : (⟨S20000x128, .f32⟩ : BufTy).Contents (Elt Ideal))
    (x1 : (⟨S300000, .i32⟩ : BufTy).Contents (Elt Ideal))
    (x2 : (⟨S300000, .i32⟩ : BufTy).Contents (Elt Ideal))
    (x3 : (⟨S256x64, .f32⟩ : BufTy).Contents (Elt Ideal))
    (x4 : (⟨S64, .f32⟩ : BufTy).Contents (Elt Ideal))
    (x5 : (⟨S64, .f32⟩ : BufTy).Contents (Elt Ideal))
    (x6 : (⟨S64, .f32⟩ : BufTy).Contents (Elt Ideal))
    (x7 : (⟨S64x32, .f32⟩ : BufTy).Contents (Elt Ideal))
    (x8 : (⟨S32, .f32⟩ : BufTy).Contents (Elt Ideal))
    (x9 : (⟨S32, .f32⟩ : BufTy).Contents (Elt Ideal))
    (x10 : (⟨S32, .f32⟩ : BufTy).Contents (Elt Ideal)) :
    val_main_v72 (F := Ideal) x0 x1 x2 x3 x4 x5 x6 x7 x8 x9 x10
      = lnRelu (Ideal.ofBits .f32 0x42000000#32) (Ideal.ofBits .f32 0x3727C5AC#32) (val_main_v47 (F := Ideal) x0 x1 x2 x3 x4 x5 x6 x7 x8)
          (shapeCast ⟨2, ![1, 32]⟩ x9 cast32) (shapeCast ⟨2, ![1, 32]⟩ x10 cast32) := by
  unfold val_main_v72 val_main_call1_v0 val_main_call1_cst val_main_v71 val_main_v70 val_main_v69 val_main_v68 val_main_v67
    val_main_v66 val_main_v65 val_main_v64 val_main_v63 val_main_v62 val_main_v61 val_main_cst_11 val_main_v60 val_main_v59
    val_main_v58 val_main_v57 val_main_cst_10 val_main_v56 val_main_v55 val_main_cst_9 val_main_v54 val_main_v53 val_main_v52
    val_main_v51 val_main_v50 val_main_cst_8 val_main_v49 val_main_v48 val_main_cst_7
  rw [host_centred _ _ _ red32, host_normalized _ _ _ _ red32 _ _ _ _ _ rfl, mulf_bias_eq_mulRow _ _ _ _ cast32,
    maximumf_bias_eq_addRowClamp _ _ _ _ _ cast32]
  rfl

/-- The perceptron's outputs. -/
theorem outputs_eq (x0 : (⟨S20000x128, .f32⟩ : BufTy).Contents (Elt Ideal))
    (x1 : (⟨S300000, .i32⟩ : BufTy).Contents (Elt Ideal))
    (x2 : (⟨S300000, .i32⟩ : BufTy).Contents (Elt Ideal))
    (x3 : (⟨S256x64, .f32⟩ : BufTy).Contents (Elt Ideal))
    (x4 : (⟨S64, .f32⟩ : BufTy).Contents (Elt Ideal))
    (x5 : (⟨S64, .f32⟩ : BufTy).Contents (Elt Ideal))
    (x6 : (⟨S64, .f32⟩ : BufTy).Contents (Elt Ideal))
    (x7 : (⟨S64x32, .f32⟩ : BufTy).Contents (Elt Ideal))
    (x8 : (⟨S32, .f32⟩ : BufTy).Contents (Elt Ideal))
    (x9 : (⟨S32, .f32⟩ : BufTy).Contents (Elt Ideal))
    (x10 : (⟨S32, .f32⟩ : BufTy).Contents (Elt Ideal))
    (x11 : (⟨S32x16, .f32⟩ : BufTy).Contents (Elt Ideal))
    (x12 : (⟨S16, .f32⟩ : BufTy).Contents (Elt Ideal)) :
    val_main_v76 (F := Ideal) x0 x1 x2 x3 x4 x5 x6 x7 x8 x9 x10 x11 x12
      = pairMlp (Ideal.ofBits .f32 0x42800000#32) (Ideal.ofBits .f32 0x42000000#32) (Ideal.ofBits .f32 0x3727C5AC#32)
          (val_main_v6 (F := Ideal) x0 x1) (val_main_v13 (F := Ideal) x0 x2) x3
          (shapeCast ⟨2, ![1, 64]⟩ x4 cast64) (shapeCast ⟨2, ![1, 64]⟩ x5 cast64) (shapeCast ⟨2, ![1, 64]⟩ x6 cast64) x7
          (shapeCast ⟨2, ![1, 32]⟩ x8 cast32) (shapeCast ⟨2, ![1, 32]⟩ x9 cast32) (shapeCast ⟨2, ![1, 32]⟩ x10 cast32) x11
          (shapeCast ⟨2, ![1, 16]⟩ x12 cast16) := by
  unfold val_main_v76 val_main_v75 val_main_v74 val_main_v73
  rw [dotGeneral_eq_project dot_S300000x32_S32x16_S300000x16_1_0_0_1_n_n rfl, addf_bias_eq_addRow _ _ _ _ cast16,
    hidden2_eq, secondPre_eq, hidden1_eq, firstPre_eq]
  rfl

/-- The identity matrix of the reference, read at an entry. -/
theorem eye_apply (s t : Fin 16) : val_main_v83 (F := Ideal) (ix2 s t) = if s.val = t.val then 1 else 0 := by
  unfold val_main_v83 val_main_v82 val_main_v81 val_main_v80 val_main_c_12 val_main_v79 val_main_v78
  exact (Cert.Lib.host_diag_apply (by decide) _ s t).trans (if_congr Fin.ext_iff rfl rfl)

/-- The reference's result is the diagonal embedding of the perceptron's outputs. -/
theorem result_eq (x0 : (⟨S20000x128, .f32⟩ : BufTy).Contents (Elt Ideal))
    (x1 : (⟨S300000, .i32⟩ : BufTy).Contents (Elt Ideal))
    (x2 : (⟨S300000, .i32⟩ : BufTy).Contents (Elt Ideal))
    (x3 : (⟨S256x64, .f32⟩ : BufTy).Contents (Elt Ideal))
    (x4 : (⟨S64, .f32⟩ : BufTy).Contents (Elt Ideal))
    (x5 : (⟨S64, .f32⟩ : BufTy).Contents (Elt Ideal))
    (x6 : (⟨S64, .f32⟩ : BufTy).Contents (Elt Ideal))
    (x7 : (⟨S64x32, .f32⟩ : BufTy).Contents (Elt Ideal))
    (x8 : (⟨S32, .f32⟩ : BufTy).Contents (Elt Ideal))
    (x9 : (⟨S32, .f32⟩ : BufTy).Contents (Elt Ideal))
    (x10 : (⟨S32, .f32⟩ : BufTy).Contents (Elt Ideal))
    (x11 : (⟨S32x16, .f32⟩ : BufTy).Contents (Elt Ideal))
    (x12 : (⟨S16, .f32⟩ : BufTy).Contents (Elt Ideal)) :
    val_main_v87 (F := Ideal) x0 x1 x2 x3 x4 x5 x6 x7 x8 x9 x10 x11 x12
      = diagEmbed (pairMlp (Ideal.ofBits .f32 0x42800000#32) (Ideal.ofBits .f32 0x42000000#32) (Ideal.ofBits .f32 0x3727C5AC#32)
          (val_main_v6 (F := Ideal) x0 x1) (val_main_v13 (F := Ideal) x0 x2) x3
          (shapeCast ⟨2, ![1, 64]⟩ x4 cast64) (shapeCast ⟨2, ![1, 64]⟩ x5 cast64) (shapeCast ⟨2, ![1, 64]⟩ x6 cast64) x7
          (shapeCast ⟨2, ![1, 32]⟩ x8 cast32) (shapeCast ⟨2, ![1, 32]⟩ x9 cast32) (shapeCast ⟨2, ![1, 32]⟩ x10 cast32) x11
          (shapeCast ⟨2, ![1, 16]⟩ x12 cast16)) := by
  funext i
  obtain ⟨p, s, t, rfl⟩ : ∃ (p : Fin 300000) (s t : Fin 16), i = ix3 p s t := ⟨i 0, i 1, i 2, eq_ix3 i⟩
  rw [val_main_v87_apply, val_main_v85_apply, val_main_v77_apply, val_main_v86_apply, val_main_v84_apply]
  have e1 : idx_main_v77 (idx_main_v85 (ix3 p s t)) = ix2 p s :=
    funext fun a => Fin.ext (by match a with | ⟨0, _⟩ => rfl | ⟨1, _⟩ => rfl)
  have e2 : idx_main_v84 (idx_main_v86 (ix3 p s t)) = ix2 s t :=
    funext fun a => Fin.ext (by match a with | ⟨0, _⟩ => rfl | ⟨1, _⟩ => rfl)
  rw [e1, e2, eye_apply s t, outputs_eq]
  rfl

end Cert.ReferenceIdeal.RefValue

end
-- ==== Proof.lean ====
/-
  The certificate's claims, assembled.

  Both programs compute, for each of 300000 pairs of edges, a three-layer perceptron (two layers each followed by a layer
  normalisation and a clamp at zero) of the pair's two gathered 128-wide feature rows, and return the diagonal matrix of
  its 16 outputs (`Proof/PairMlp.lean`).  The kernel program does so block of 6000 pairs by block, with the first layer as
  two half-products, and flattens each 16 × 16 matrix to 256 lanes, a host reshape undoing the flattening
  (`Proof/KernelBody.lean`, `Proof/KernelWindows.lean`, `Proof/KernelValue.lean`); the reference does so on all pairs at
  once with the first layer as one product over the 256 concatenated features (`Proof/RefValue.lean`).  The two first layers
  agree by splitting a finite sum at 128, which needs no finiteness of the inputs; everything else is the same function
  written the same way, so the precondition is never opened.  The idealization rewrote nothing, so `preserves` is `True`.
-/
import proofs.«171774_j81698867905243_2_alg».proof.Defs
import proofs.«171774_j81698867905243_2_alg».proof.Proof.Gen.Kernel
import proofs.«171774_j81698867905243_2_alg».proof.Proof.Gen.Kernel.Frame
import proofs.«171774_j81698867905243_2_alg».proof.Proof.Gen.KernelIdeal
import proofs.«171774_j81698867905243_2_alg».proof.Proof.Gen.KernelIdeal.Frame
import proofs.«171774_j81698867905243_2_alg».proof.Proof.Gen.ReferenceIdeal
import proofs.«171774_j81698867905243_2_alg».proof.Proof.Gen.ReferenceIdeal.Run
import proofs.«171774_j81698867905243_2_alg».proof.Proof.Gen.ReferenceIdeal.Read
import proofs.«171774_j81698867905243_2_alg».proof.Proof.Gen.Pre_finite_inputs
import proofs.«171774_j81698867905243_2_alg».proof.Proof.KernelValue
import proofs.«171774_j81698867905243_2_alg».proof.Proof.RefValue

set_option maxRecDepth 16384

noncomputable section

namespace Cert.Proof

open Idealize.ShloMosaic Idealize.SL.Sem Cert.Layers

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the diagonal embedding of the same perceptron outputs. -/
theorem algebraic : Cert.algebraic_KernelIdeal_ReferenceIdeal := by
  intro m ρ m' ρ' _ hagree
  refine ⟨fun c => diagEmbed (Cert.KernelIdeal.Blocks.outputs m c), Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v87_eq, Cert.ReferenceIdeal.RefValue.result_eq,
    a0, a1, a2, a3, a4, a5, a6, a7, a8, a9, a10, a11, a12]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
